-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S20000 : Shape := ⟨1, ![20000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S20000 : S_.BroadcastsInDim S20000 (![] : Fin 0 → Fin S20000.rank)
  reducesTo_S20000_S_d0 : S20000.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S128x1 .f32) (main_arg11 : FVec F S1 .f32) (main_arg12 : FVec F S128x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x32 .f32) (main_arg1 : IVec S2x1600000 32) (main_arg2 : IVec S20000 32) (main_arg3 : FVec F S20000 .f32) (main_arg4 : FVec F S32x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x1 .f32) (main_arg13 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S20000 .f32 := Host.absf main_arg3
  let main_cst_0 : FVec F S_ .f32 := constant S_ .f32 0x7F800000#32
  let main_v5 : FVec F S20000 .f32 := broadcastInDim S20000 ![] bcast_S_S20000 main_cst_0
  let main_v6 : IVec S20000 1 := cmpf .olt main_v4 main_v5
  let main_c_1 : IVec S_ 1 := constantI S_ 1 1#1
  let main_v7 : IVec S_ 1 := (fun x v => Host.reduce IntOp.andi x v reducesTo_S20000_S_d0 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x32 : Shape := ⟨2, ![100000, 32]⟩
abbrev S2x1600000 : Shape := ⟨2, ![2, 1600000]⟩
abbrev S20000 : Shape := ⟨1, ![20000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S1600000x128 : Shape := ⟨2, ![1600000, 128]⟩
abbrev S20000x1 : Shape := ⟨2, ![20000, 1]⟩
abbrev S20000x128 : Shape := ⟨2, ![20000, 128]⟩
abbrev S128x2 : Shape := ⟨2, ![128, 2]⟩
abbrev S2 : Shape := ⟨1, ![2]⟩
abbrev S1x2 : Shape := ⟨2, ![1, 2]⟩
abbrev S20000x2 : Shape := ⟨2, ![20000, 2]⟩
abbrev S5000x32 : Shape := ⟨2, ![5000, 32]⟩
abbrev S5000x1 : Shape := ⟨2, ![5000, 1]⟩
abbrev S5000x128 : Shape := ⟨2, ![5000, 128]⟩
abbrev S5000x2 : Shape := ⟨2, ![5000, 2]⟩

abbrev nBuf : Space → Nat
  | .hbm => 115
  | .vmem => 34
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S20000, .i32⟩
  | .hbm, ⟨3, _⟩ => ⟨S20000, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1x128, .f32⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .bf16⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S20000, .i32⟩
  | .hbm, ⟨65, _⟩ => ⟨S20000, .i1⟩
  | .hbm, ⟨66, _⟩ => ⟨S_, .i32⟩
  | .hbm, ⟨67, _⟩ => ⟨S20000, .i32⟩
  | .hbm, ⟨68, _⟩ => ⟨S20000, .i32⟩
  | .hbm, ⟨69, _⟩ => ⟨S20000, .i32⟩
  | .hbm, ⟨70, _⟩ => ⟨S20000x1, .i32⟩
  | .hbm, ⟨71, _⟩ => ⟨S20000x128, .f32⟩
  | .hbm, ⟨72, _⟩ => ⟨S128x2, .f32⟩
  | .hbm, ⟨73, _⟩ => ⟨S2, .f32⟩
  | .hbm, ⟨74, _⟩ => ⟨S1x2, .f32⟩
  | .hbm, ⟨75, _⟩ => ⟨S20000x2, .f32⟩
  | .hbm, ⟨76, _⟩ => ⟨S20000x1, .f32⟩
  | .hbm, ⟨77, _⟩ => ⟨S20000, .f32⟩
  | .hbm, ⟨78, _⟩ => ⟨S20000x1, .f32⟩
  | .hbm, ⟨79, _⟩ => ⟨S20000, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S20000, .f32⟩
  | .hbm, ⟨84, _⟩ => ⟨S20000, .f32⟩
  | .hbm, ⟨85, _⟩ => ⟨S_, .f32⟩
  | .hbm, ⟨86, _⟩ => ⟨S20000, .f32⟩
  | .hbm, ⟨87, _⟩ => ⟨S20000, .f32⟩
  | .hbm, ⟨88, _⟩ => ⟨S20000, .f32⟩
  | .hbm, ⟨89, _⟩ => ⟨S20000, .f32⟩
  | .hbm, ⟨90, _⟩ => ⟨S20000, .f32⟩
  | .hbm, ⟨91, _⟩ => ⟨S20000, .f32⟩
  | .hbm, ⟨92, _⟩ => ⟨S_, .f32⟩
  | .hbm, ⟨93, _⟩ => ⟨S20000, .f32⟩
  | .hbm, ⟨94, _⟩ => ⟨S20000, .f32⟩
  | .hbm, ⟨95, _⟩ => ⟨S20000, .f32⟩
  | .hbm, ⟨96, _⟩ => ⟨S20000, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S20000, .f32⟩
  | .hbm, ⟨101, _⟩ => ⟨S20000, .f32⟩
  | .hbm, ⟨102, _⟩ => ⟨S_, .f32⟩
  | .hbm, ⟨103, _⟩ => ⟨S_, .f32⟩
  | .hbm, ⟨104, _⟩ => ⟨S20000, .f32⟩
  | .hbm, ⟨105, _⟩ => ⟨S_, .f32⟩
  | .hbm, ⟨106, _⟩ => ⟨S20000, .f32⟩
  | .hbm, ⟨107, _⟩ => ⟨S20000, .f32⟩
  | .hbm, ⟨108, _⟩ => ⟨S_, .f32⟩
  | .hbm, ⟨109, _⟩ => ⟨S20000, .f32⟩
  | .hbm, ⟨110, _⟩ => ⟨S20000, .f32⟩
  | .hbm, ⟨111, _⟩ => ⟨S20000, .f32⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S128x128, .f32⟩
  | .local _ .vmem, ⟨5, _⟩ => ⟨S5000x1, .f32⟩
  | .local _ .vmem, ⟨6, _⟩ => ⟨S5000x1, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S128x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .bf16⟩
  | .local _ .vmem, ⟨22, _⟩ => ⟨S5000x128, .bf16⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x2, .f32⟩
  | .local _ .vmem, ⟨31, _⟩ => ⟨S1x2, .f32⟩
  | .local _ .vmem, ⟨32, _⟩ => ⟨S5000x2, .f32⟩
  | .local _ .vmem, ⟨33, _⟩ => ⟨S5000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_c : Ref sig .tc := ⟨.hbm, 31, rfl⟩
abbrev main_call0_v14 : Ref sig .tc := ⟨.hbm, 32, rfl⟩
abbrev main_call0_v15 : Ref sig .tc := ⟨.hbm, 33, rfl⟩
abbrev main_call0_c_2 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_cst_3 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_c_4 : Ref sig .tc := ⟨.hbm, 47, rfl⟩
abbrev main_call0_v27 : Ref sig .tc := ⟨.hbm, 48, rfl⟩
abbrev main_call0_v28 : Ref sig .tc := ⟨.hbm, 49, rfl⟩
abbrev main_call0_c_5 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_cst_6 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_c_7 : Ref sig .tc := ⟨.hbm, 63, rfl⟩
abbrev main_call0_v40 : Ref sig .tc := ⟨.hbm, 64, rfl⟩
abbrev main_call0_v41 : Ref sig .tc := ⟨.hbm, 65, rfl⟩
abbrev main_call0_c_8 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_cst_9 : Ref sig .tc := ⟨.hbm, 80, rfl⟩
abbrev main_call0_cst_10 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_v0_0 : Ref sig .tc := ⟨.hbm, 91, rfl⟩
abbrev main_call0_cst_11 : Ref sig .tc := ⟨.hbm, 92, rfl⟩
abbrev main_call0_v60 : Ref sig .tc := ⟨.hbm, 93, rfl⟩
abbrev main_call0_v61 : Ref sig .tc := ⟨.hbm, 94, rfl⟩
abbrev main_call0_v62 : Ref sig .tc := ⟨.hbm, 95, rfl⟩
abbrev main_call0_v63 : Ref sig .tc := ⟨.hbm, 96, rfl⟩
abbrev main_call0_cst_12 : Ref sig .tc := ⟨.hbm, 97, rfl⟩
abbrev main_call0_cst_13 : Ref sig .tc := ⟨.hbm, 98, rfl⟩
abbrev main_call0_v64 : Ref sig .tc := ⟨.hbm, 99, rfl⟩
abbrev main_call0_v65 : Ref sig .tc := ⟨.hbm, 100, rfl⟩
abbrev main_call0_v66 : Ref sig .tc := ⟨.hbm, 101, rfl⟩
abbrev main_call0_cst_14 : Ref sig .tc := ⟨.hbm, 102, rfl⟩
abbrev main_call0_v67 : Ref sig .tc := ⟨.hbm, 103, rfl⟩
abbrev main_call0_v68 : Ref sig .tc := ⟨.hbm, 104, rfl⟩
abbrev main_call0_cst_15 : Ref sig .tc := ⟨.hbm, 105, rfl⟩
abbrev main_call0_v69 : Ref sig .tc := ⟨.hbm, 106, rfl⟩
abbrev main_call0_v70 : Ref sig .tc := ⟨.hbm, 107, rfl⟩
abbrev main_call0_cst_16 : Ref sig .tc := ⟨.hbm, 108, rfl⟩
abbrev main_call0_v71 : Ref sig .tc := ⟨.hbm, 109, rfl⟩
abbrev main_call0_v72 : Ref sig .tc := ⟨.hbm, 110, rfl⟩
abbrev main_call0_v73 : Ref sig .tc := ⟨.hbm, 111, rfl⟩
abbrev main_call0_cst_17 : Ref sig .tc := ⟨.hbm, 112, rfl⟩
abbrev main_call0_v74 : Ref sig .tc := ⟨.hbm, 113, rfl⟩
abbrev main_v0_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  bitsLt_bf16_f32 : FTy.bits .bf16 < FTy.bits .f32
  bcast_S_S100000x128 : S_.BroadcastsInDim S100000x128 (![] : Fin 0 → Fin S100000x128.rank)
  bcast_S_S20000 : S_.BroadcastsInDim S20000 (![] : Fin 0 → Fin S20000.rank)
  bcast_S20000_S20000x1_0 : S20000.BroadcastsInDim S20000x1 (![0] : Fin 1 → Fin S20000x1.rank)
  concatenates_S128x1_S128x1_S128x2_d1 : Shape.Concatenates [S128x1, S128x1] S128x2 1
  concatenates_S1_S1_S2_d0 : Shape.Concatenates [S1, S1] S2 0
  shapeCasts_S2_S1x2 : S2.ShapeCasts S1x2
  slices_S20000x2_S20000x1_0_0 : S20000x2.Slices ![0, 0] S20000x1
  shapeCasts_S20000x1_S20000 : S20000x1.ShapeCasts S20000
  slices_S20000x2_S20000x1_0_1 : S20000x2.Slices ![0, 1] S20000x1
  reducesTo_S20000_S_d0 : S20000.ReducesTo [0] S_
  h_S_ : 0 < S_.numel
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S20000x1_S20000x128_1_0_n_n_0_1_1128_wf : GatherDims.WF S100000x128 S20000x1 S20000x128 [1] [0] [] [0] [] 1 ![1, 128]
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S20000x2.size a
  hwx3_3 : ∀ i : grid3.Coords, EltTy.bits .f32 = 32 ∨ (Rect.block (s := S20000x2) S5000x2.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v39) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v47) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v49) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v50) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S20000 : Shape := ⟨1, ![20000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S20000x1 : Shape := ⟨2, ![20000, 1]⟩
abbrev S20000x128 : Shape := ⟨2, ![20000, 128]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S100000x32, .f32⟩
  | 1 => ⟨S2x1600000, .i32⟩
  | 2 => ⟨S20000, .i32⟩
  | 3 => ⟨S20000, .f32⟩
  | 4 => ⟨S32x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S128x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x128, .f32⟩
  | 29 => ⟨S1x128, .f32⟩
  | 30 => ⟨S100000x128, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .i32⟩
  | 127 => ⟨S20000, .i32⟩
  | _ => ⟨S100000x32, .f32⟩

abbrev hbmTy0_1 (i : Nat) : BufTy := match i % 128 with
  | 0 => ⟨S20000, .i1⟩
  | 1 => ⟨S_, .i32⟩
  | 2 => ⟨S20000, .i32⟩
  | 3 => ⟨S20000, .i32⟩
  | 4 => ⟨S20000, .i32⟩
  | 5 => ⟨S20000x1, .i32⟩
  | 6 => ⟨S20000x128, .f32⟩
  | 7 => ⟨S20000x1, .f32⟩
  | 8 => ⟨S1x1, .f32⟩
  | 9 => ⟨S20000x1, .f32⟩
  | 10 => ⟨S20000x1, .f32⟩
  | 11 => ⟨S20000, .f32⟩
  | 12 => ⟨S20000x1, .f32⟩
  | 13 => ⟨S1x1, .f32⟩
  | 14 => ⟨S20000x1, .f32⟩
  | 15 => ⟨S20000x1, .f32⟩
  | 16 => ⟨S20000, .f32⟩
  | 17 => ⟨S_, .f32⟩
  | 18 => ⟨S_, .f32⟩
  | 19 => ⟨S_, .f32⟩
  | 20 => ⟨S20000, .f32⟩
  | 21 => ⟨S20000, .f32⟩
  | 22 => ⟨S_, .f32⟩
  | 23 => ⟨S20000, .f32⟩
  | 24 => ⟨S20000, .f32⟩
  | 25 => ⟨S20000, .f32⟩
  | 26 => ⟨S20000, .f32⟩
  | 27 => ⟨S20000, .f32⟩
  | 28 => ⟨S20000, .f32⟩
  | 29 => ⟨S_, .f32⟩
  | 30 => ⟨S20000, .f32⟩
  | 31 => ⟨S20000, .f32⟩
  | 32 => ⟨S20000, .f32⟩
  | 33 => ⟨S20000, .f32⟩
  | 34 => ⟨S_, .f32⟩
  | 35 => ⟨S_, .f32⟩
  | 36 => ⟨S_, .f32⟩
  | 37 => ⟨S20000, .f32⟩
  | 38 => ⟨S20000, .f32⟩
  | 39 => ⟨S_, .f32⟩
  | 40 => ⟨S_, .f32⟩
  | 41 => ⟨S20000, .f32⟩
  | 42 => ⟨S_, .f32⟩
  | 43 => ⟨S20000, .f32⟩
  | 44 => ⟨S20000, .f32⟩
  | 45 => ⟨S_, .f32⟩
  | 46 => ⟨S20000, .f32⟩
  | 47 => ⟨S20000, .f32⟩
  | 48 => ⟨S20000, .f32⟩
  | 49 => ⟨S_, .f32⟩
  | 50 => ⟨S_, .f32⟩
  | 51 => ⟨S_, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call0_cst : Ref sig .tc := ⟨.hbm, 76, rfl⟩
abbrev main_call0_v0 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_call1_cst : Ref sig .tc := ⟨.hbm, 123, rfl⟩
abbrev main_call1_v0 : Ref sig .tc := ⟨.hbm, 124, rfl⟩
abbrev main_v90 : Ref sig .tc := ⟨.hbm, 125, rfl⟩
abbrev main_c_15 : Ref sig .tc := ⟨.hbm, 126, rfl⟩
abbrev main_v91 : Ref sig .tc := ⟨.hbm, 127, rfl⟩
abbrev main_v92 : Ref sig .tc := ⟨.hbm, 128, rfl⟩
abbrev main_c_16 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_17 : Ref sig .tc := ⟨.hbm, 145, rfl⟩
abbrev main_cst_18 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_19 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_20 : Ref sig .tc := ⟨.hbm, 162, rfl⟩
abbrev main_cst_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_v123 : Ref sig .tc := ⟨.hbm, 172, rfl⟩
abbrev main_cst_24 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_25 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  reducesTo_S20000_S_d0 : S20000.ReducesTo [0] S_
  h_S_ : 0 < S_.numel
  scatter_S100000_S1600000x1_S1600000_n_0_0_1_wf : ScatterDims.WF S100000 S1600000x1 S1600000 [] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S20000x1_S20000x128_1_0_n_n_0_1_1128_wf : GatherDims.WF S100000x128 S20000x1 S20000x128 [1] [0] [] [0] [] 1 ![1, 128]
  dot_S20000x128_S128x1_S20000x1_1_0_0_1_n_n_wf : DotDims.WF S20000x128 S128x1 S20000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KPay.lean ====
/-
  The four kernel bodies' stored values read at one entry (p, q) of the output block, over the extended reals, where
  a change of float format is the identity and a matmul into a zero accumulator is the plain sum of products:
  * the input stage: ((x · W_in + b_in) · W1)(p, q) · isd(p);
  * a layer's closing fused with the next matmul: the rows relu(isd · (scan + hws) + b) times W2, times isd(p);
  * the last layer's closing: relu(isd(p) · (scan(p, q) + hws(p, q)) + b(q));
  * the head: (z · W)(p, u) + b(u).
  Here isd is a column (one entry per row of the block) and each bias a 1 × n row.
-/
import proofs.«114178_j8143257993844_2_alg».proof.Proof.Gen.KernelIdeal.Skeleton
import proofs.«114178_j8143257993844_2_alg».proof.Proof.LibPlainDot
import proofs.«114178_j8143257993844_2_alg».proof.Proof.LibRowVector
import proofs.«114178_j8143257993844_2_alg».proof.Proof.LibRowOps
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx

/-- Narrowing a float format is the identity on the extended reals (stated in EReal so that the two formats' types meet). -/
theorem truncf_at {s : Shape} {φ ψ : FTy} (a : FVec Ideal s φ) (h : ψ.bits < φ.bits) (i : s.Idx) :
    @Eq EReal ((truncf ψ a h : FVec Ideal s ψ) i) (a i) := rfl

/-- Widening a float format is the identity on the extended reals. -/
theorem extf_at {s : Shape} {φ ψ : FTy} (a : FVec Ideal s φ) (h : φ.bits < ψ.bits) (i : s.Idx) :
    @Eq EReal ((extf ψ a h : FVec Ideal s ψ) i) (a i) := rfl

/-- The zero word the kernels clamp against. -/
abbrev zeroWord : EReal := Scalar.ofBits (F := Ideal) .f32 0x00000000#32

/-- The input stage's entry. -/
theorem pay0_apply (v0 : FVec Ideal S5000x32 .f32) (v2 : FVec Ideal S32x128 .f32) (v5 : FVec Ideal S1x128 .f32)
    (v10 : FVec Ideal S128x128 .f32) (v13 : FVec Ideal S5000x1 .f32) (p : Fin 5000) (q : Fin 128) :
    k0_pay1 (F := Ideal) v0 v2 v5 v10 v13 (ix2 p q)
      = (∑ c : Fin 128, ((∑ j : Fin 32, v0 (ix2 p j) * v2 (ix2 j c)) + v5 (ix2 0 c)) * v10 (ix2 c q))
          * v13 (ix2 p 0) := by
  unfold k0_pay1
  refine (truncf_at _ _ _).trans ?_
  refine (mulf_apply _ _ _).trans ?_
  refine congrArg₂ (· * ·) ?_ ?_
  · refine (Cert.PlainDot.matmul_zero_apply _ rfl none _ _ p q).trans ?_
    refine Finset.sum_congr rfl fun c _ => ?_
    refine congrArg₂ (· * ·) ?_ (truncf_at _ _ _)
    refine (truncf_at _ _ _).trans ?_
    refine (addf_apply _ _ _).trans ?_
    refine congrArg₂ (· + ·) ?_ ?_
    · exact Cert.PlainDot.matmul_zero_apply _ rfl none _ _ p c
    · refine (Cert.RowVector.broadcastTo_row (by decide) _ _ p c).trans ?_
      rw [shapeCast_self]
  · refine (RowOps.broadcastTo_a1_ab_apply _ _ p q).trans ?_
    rw [shapeCast_self]

/-- A layer's closing at one entry: relu(isd(p) · (scan(p, c) + hws(p, c)) + b(c)). -/
def closing (isd : FVec Ideal S5000x1 .f32) (scan : FVec Ideal S5000x128 .f32) (hws : FVec Ideal S5000x128 .bf16)
    (b : FVec Ideal S1x128 .f32) (p : Fin 5000) (c : Fin 128) : EReal :=
  max (isd (ix2 p 0) * (scan (ix2 p c) + hws (ix2 p c)) + b (ix2 0 c)) zeroWord

/-- The last layer's closing is the stored entry. -/
theorem pay2_apply (v0 : FVec Ideal S5000x1 .f32) (v2 : FVec Ideal S5000x128 .f32) (v4 : FVec Ideal S5000x128 .bf16)
    (v10 : FVec Ideal S1x128 .f32) (p : Fin 5000) (q : Fin 128) :
    k2_pay1 (F := Ideal) v0 v2 v4 v10 (ix2 p q) = closing v0 v2 v4 v10 p q := by
  unfold k2_pay1 closing
  refine (maximumf_apply _ _ _).trans ?_
  refine congrArg₂ max ?_ (broadcast_apply _ _)
  refine (addf_apply _ _ _).trans ?_
  refine congrArg₂ (· + ·) ?_ ?_
  · refine (mulf_apply _ _ _).trans ?_
    refine congrArg₂ (· * ·) ?_ ?_
    · refine (RowOps.broadcastTo_a1_ab_apply _ _ p q).trans ?_
      rw [shapeCast_self]
    · refine (addf_apply _ _ _).trans ?_
      rw [shapeCast_self, shapeCast_self]
      rfl
  · refine (Cert.RowVector.broadcastTo_row (by decide) _ _ p q).trans ?_
    rw [shapeCast_self]

/-- The middle stage's entry: the closed rows times W2, times isd(p). -/
theorem pay1_apply (v0 : FVec Ideal S5000x1 .f32) (v2 : FVec Ideal S5000x128 .f32) (v4 : FVec Ideal S5000x128 .bf16)
    (v10 : FVec Ideal S1x128 .f32) (v17 : FVec Ideal S128x128 .f32) (v20 : FVec Ideal S5000x1 .f32)
    (p : Fin 5000) (q : Fin 128) :
    k1_pay1 (F := Ideal) v0 v2 v4 v10 v17 v20 (ix2 p q)
      = (∑ c : Fin 128, closing v0 v2 v4 v10 p c * v17 (ix2 c q)) * v20 (ix2 p 0) := by
  unfold k1_pay1
  refine (truncf_at _ _ _).trans ?_
  refine (mulf_apply _ _ _).trans ?_
  refine congrArg₂ (· * ·) ?_ ?_
  · refine (Cert.PlainDot.matmul_zero_apply _ rfl none _ _ p q).trans ?_
    refine Finset.sum_congr rfl fun c _ => ?_
    refine congrArg₂ (· * ·) ?_ (truncf_at _ _ _)
    refine (truncf_at _ _ _).trans ?_
    exact pay2_apply v0 v2 v4 v10 p c
  · refine (RowOps.broadcastTo_a1_ab_apply _ _ p q).trans ?_
    rw [shapeCast_self]

/-- The head's entry. -/
theorem pay3_apply (v0 : FVec Ideal S5000x128 .f32) (v3 : FVec Ideal S128x2 .f32) (v7 : FVec Ideal S1x2 .f32)
    (p : Fin 5000) (u : Fin 2) :
    k3_pay1 (F := Ideal) v0 v3 v7 (ix2 p u) = (∑ c : Fin 128, v0 (ix2 p c) * v3 (ix2 c u)) + v7 (ix2 0 u) := by
  unfold k3_pay1
  refine (addf_apply _ _ _).trans ?_
  refine congrArg₂ (· + ·) ?_ ?_
  · refine (Cert.PlainDot.matmul_zero_apply _ rfl none _ _ p u).trans ?_
    rw [shapeCast_self, shapeCast_self]
    rfl
  · refine (Cert.RowVector.broadcastTo_row (by decide) _ _ p u).trans ?_
    rw [shapeCast_self]

end Cert.KernelIdeal.Pay

end
-- ==== Proof.KReg0.lean ====
/-
  The first pallas_call's output array. Its grid has 20 points; point t stages rows [5000 t, 5000 t + 5000) of x and of
  the degree column, the whole of W_in, of the bias row and of W1, and writes back rows [5000 t, 5000 t + 5000) of the
  output. So the output array is ONE function of the arrays the region finds: entry (k, l) is
  ((x · W_in + b_in) · W1)(k, l) · isd(k), whatever block k falls in.
-/
import proofs.«114178_j8143257993844_2_alg».proof.Proof.Gen.KernelIdeal.Frame
import proofs.«114178_j8143257993844_2_alg».proof.Proof.KPay

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The output as a function of the five arrays: entry i = (k, l). -/
def G (x : S100000x32.Idx → EReal) (win : S32x128.Idx → EReal) (brow : S1x128.Idx → EReal)
    (w1 : S128x128.Idx → EReal) (isd : S100000x1.Idx → EReal) : S100000x128.Idx → EReal := fun i =>
  (∑ c : Fin 128, ((∑ j : Fin 32, x (ix2 (n0 := 100000) (i 0) j) * win (ix2 j c)) + brow (ix2 0 c))
      * w1 (ix2 c (n1 := 128) (i 1))) * isd (ix2 (n0 := 100000) (i 0) 0)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the output, the others stay at the origin,
    and the output's block row is the point's number. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (0 : Fin 2) ≤ 19 ∧ win0_5.index t (1 : Fin 2) = 0 :=
  (by decide +kernel : ∀ t : Fin grid0.N, _)

/-- Every block row is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What point t writes back is block t of `G` of the arrays as the region finds them. -/
theorem flushed_eq (c : Dev nD) (t : Fin cfg0.N) :
    (dat0 V c).flushed 5 t = ((cfg0.win 5).blk t).view.read (Elt Ideal)
      (G (V c main_arg0) (V c main_arg4) (V c main_call0_v12) (V c main_arg6) (V c main_call0_v11)) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x128) hz, View.ld_unit_zero (S := S1x128) hz,
    View.ld_unit_zero (S := S128x128) hz, View.ld_unit_zero (S := S5000x1) hz]
  obtain ⟨e0, e1, e2, e3, e4, e5, e6, e7, e8, e9, e10, e11⟩ := idx_facts t
  funext y
  obtain ⟨p, q, rfl⟩ : ∃ (p : Fin 5000) (q : Fin 128), y = ix2 p q := ⟨y 0, y 1, eq_ix2 y⟩
  refine (Cert.KernelIdeal.Pay.pay0_apply _ _ _ _ _ p q).trans ?_
  show _ = G (V c main_arg0) (V c main_arg4) (V c main_call0_v12) (V c main_arg6) (V c main_call0_v11)
    (((cfg0.win 5).blk t).view.emb (ix2 p q))
  unfold G
  have hx : ∀ j : Fin 32, iblk0 V c 0 t (ix2 p j)
      = V c main_arg0 (ix2 (n0 := 100000) (((cfg0.win 5).blk t).view.emb (ix2 p q) 0) j) := fun j => by
    show V c main_arg0 (((cfg0.win 0).blk t).view.emb (ix2 p j)) = _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 32 + 1 * j.val = j.val; omega
  have hwin : ∀ (j : Fin 32) (cc : Fin 128), iblk0 V c 1 t (ix2 j cc) = V c main_arg4 (ix2 j cc) := fun j cc => by
    show V c main_arg4 (((cfg0.win 1).blk t).view.emb (ix2 j cc)) = _
    refine congrArg _ (funext fun a => Fin.ext ?_)
    match a with
    | ⟨0, _⟩ => show win0_1.index t (0 : Fin 2) * 32 + 1 * j.val = j.val; omega
    | ⟨1, _⟩ => show win0_1.index t (1 : Fin 2) * 128 + 1 * cc.val = cc.val; omega
  have hb : ∀ cc : Fin 128, iblk0 V c 2 t (ix2 0 cc) = V c main_call0_v12 (ix2 0 cc) := fun cc => by
    show V c main_call0_v12 (((cfg0.win 2).blk t).view.emb (ix2 0 cc)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * cc.val = cc.val; omega
  have hw1 : ∀ cc : Fin 128, iblk0 V c 3 t (ix2 cc q)
      = V c main_arg6 (ix2 cc (n1 := 128) (((cfg0.win 5).blk t).view.emb (ix2 p q) 1)) := fun cc => by
    show V c main_arg6 (((cfg0.win 3).blk t).view.emb (ix2 cc q)) = _
    refine congrArg _ (funext fun a => Fin.ext ?_)
    match a with
    | ⟨0, _⟩ => show win0_3.index t (0 : Fin 2) * 128 + 1 * cc.val = cc.val; omega
    | ⟨1, _⟩ => show win0_3.index t (1 : Fin 2) * 128 + 1 * q.val = win0_5.index t (1 : Fin 2) * 128 + 1 * q.val; omega
  have hisd : iblk0 V c 4 t (ix2 p 0)
      = V c main_call0_v11 (ix2 (n0 := 100000) (((cfg0.win 5).blk t).view.emb (ix2 p q) 0) 0) := by
    show V c main_call0_v11 (((cfg0.win 4).blk t).view.emb (ix2 p 0)) = _
    refine congrArg _ (funext fun a => Fin.ext ?_)
    match a with
    | ⟨0, _⟩ => show win0_4.index t (0 : Fin 2) * 5000 + 1 * p.val = win0_5.index t (0 : Fin 2) * 5000 + 1 * p.val; omega
    | ⟨1, _⟩ => show win0_4.index t (1 : Fin 2) * 1 + 1 * 0 = 0; omega
  rw [hisd]
  refine congrArg₂ (· * ·) (Finset.sum_congr rfl fun cc _ => ?_) rfl
  rw [hw1 cc, hb cc]
  refine congrArg₂ (· * ·) (congrArg₂ (· + ·) (Finset.sum_congr rfl fun j _ => ?_) rfl) rfl
  rw [hx j, hwin j cc]

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_call0_v13).slice (win0_5.rect t)).set ↔ _
  rw [View.set_slice_whole, Rect.mem_set_unit]
  exact Iff.rfl

/-- Every index is in some point's block: row k is in block k / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region. -/
theorem final (c : Dev nD) : (dat0 V c).arrAt 5 cfg0.N
    = G (V c main_arg0) (V c main_arg4) (V c main_call0_v12) (V c main_arg6) (V c main_call0_v11) :=
  (dat0 V c).arrAt_eq_of_cover 5 _ (fun t _ => flushed_eq V c t) cover

end Cert.KernelIdeal.Reg0

end
-- ==== Proof.KReg1.lean ====
/-
  The second pallas_call's output array: the first layer's closing fused with the next matmul. Point t of its 20
  stages rows [5000 t, 5000 t + 5000) of the scattered sums, of the pre-scaled features and of the degree column, the
  whole bias row and the whole of W2, and writes back the same rows of the output. Entry (k, l) is
  (relu(isd(k) · (scan(k, ·) + hws(k, ·)) + b) · W2)(l) · isd(k).
-/
import proofs.«114178_j8143257993844_2_alg».proof.Proof.Gen.KernelIdeal.Frame
import proofs.«114178_j8143257993844_2_alg».proof.Proof.KPay

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.KernelIdeal.Pay (zeroWord closing)

/-- The output as a function of the five arrays: entry i = (k, l). -/
def G (scan hws : S100000x128.Idx → EReal) (isd : S100000x1.Idx → EReal) (brow : S1x128.Idx → EReal)
    (w2 : S128x128.Idx → EReal) : S100000x128.Idx → EReal := fun i =>
  (∑ c : Fin 128, max (isd (ix2 (n0 := 100000) (i 0) 0) * (scan (ix2 (n0 := 100000) (i 0) c) + hws (ix2 (n0 := 100000) (i 0) c))
      + brow (ix2 0 c)) zeroWord * w2 (ix2 c (n1 := 128) (i 1))) * isd (ix2 (n0 := 100000) (i 0) 0)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the output, the others stay at the origin. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What point t writes back is block t of `G` of the arrays as the region finds them. -/
theorem flushed_eq (c : Dev nD) (t : Fin cfg1.N) :
    (dat1 V c).flushed 5 t = ((cfg1.win 5).blk t).view.read (Elt Ideal) (G (V c main_call0_v24) (V c main_call0_v13) (V c main_call0_v11) (V c main_call0_v25) (V c main_arg8)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x128) hz]
  obtain ⟨e0, e1, e2, e3, e4, e5, e6, e7, e8, e9, e10, e11⟩ := idx_facts t
  funext y
  obtain ⟨p, q, rfl⟩ : ∃ (p : Fin 5000) (q : Fin 128), y = ix2 p q := ⟨y 0, y 1, eq_ix2 y⟩
  refine (Cert.KernelIdeal.Pay.pay1_apply _ _ _ _ _ _ p q).trans ?_
  show _ = G (V c main_call0_v24) (V c main_call0_v13) (V c main_call0_v11) (V c main_call0_v25) (V c main_arg8) (((cfg1.win 5).blk t).view.emb (ix2 p q))
  unfold G closing
  have hscan : ∀ cc : Fin 128, iblk1 V c 0 t (ix2 p cc) = V c main_call0_v24 (ix2 (n0 := 100000) (((cfg1.win 5).blk t).view.emb (ix2 p q) 0) cc) := fun cc : Fin 128 => by
    show V c main_call0_v24 (((cfg1.win 0).blk t).view.emb (ix2 p cc)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * cc.val = cc.val; omega
  have hhws : ∀ cc : Fin 128, iblk1 V c 1 t (ix2 p cc) = V c main_call0_v13 (ix2 (n0 := 100000) (((cfg1.win 5).blk t).view.emb (ix2 p q) 0) cc) := fun cc : Fin 128 => by
    show V c main_call0_v13 (((cfg1.win 1).blk t).view.emb (ix2 p cc)) = _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * cc.val = cc.val; omega
  have hisd : iblk1 V c 2 t (ix2 p 0) = V c main_call0_v11 (ix2 (n0 := 100000) (((cfg1.win 5).blk t).view.emb (ix2 p q) 0) 0) := by
    show V c main_call0_v11 (((cfg1.win 2).blk t).view.emb (ix2 p 0)) = _
    refine congrArg _ (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have hb : ∀ cc : Fin 128, iblk1 V c 3 t (ix2 0 cc) = V c main_call0_v25 (ix2 0 cc) := fun cc : Fin 128 => by
    show V c main_call0_v25 (((cfg1.win 3).blk t).view.emb (ix2 0 cc)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * cc.val = cc.val; omega
  have hw2 : ∀ cc : Fin 128, iblk1 V c 4 t (ix2 cc q) = V c main_arg8 (ix2 cc (n1 := 128) (((cfg1.win 5).blk t).view.emb (ix2 p q) 1)) := fun cc : Fin 128 => by
    show V c main_arg8 (((cfg1.win 4).blk t).view.emb (ix2 cc q)) = _
    refine congrArg _ (funext fun a => Fin.ext ?_)
    match a with
    | ⟨0, _⟩ => show win1_4.index t (0 : Fin 2) * 128 + 1 * cc.val = cc.val; omega
    | ⟨1, _⟩ => show win1_4.index t (1 : Fin 2) * 128 + 1 * q.val = win1_5.index t (1 : Fin 2) * 128 + 1 * q.val; omega
  rw [hisd]
  refine congrArg₂ (· * ·) (Finset.sum_congr rfl fun cc _ => ?_) rfl
  rw [hw2 cc, hb cc, hscan cc, hhws cc]

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_call0_v26).slice (win1_5.rect t)).set ↔ _
  rw [View.set_slice_whole, Rect.mem_set_unit]
  exact Iff.rfl

/-- Every index is in some point's block: row k is in block k / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region. -/
theorem final (c : Dev nD) : (dat1 V c).arrAt 5 cfg1.N
    = G (V c main_call0_v24) (V c main_call0_v13) (V c main_call0_v11) (V c main_call0_v25) (V c main_arg8) :=
  (dat1 V c).arrAt_eq_of_cover 5 _ (fun t _ => flushed_eq V c t) cover

end Cert.KernelIdeal.Reg1

end
-- ==== Proof.KReg2.lean ====
/-
  The third pallas_call's output array: the second layer's closing. Point t of its 20 stages rows
  [5000 t, 5000 t + 5000) of the scattered sums, of the pre-scaled features and of the degree column and the whole
  bias row, and writes back the same rows. Entry (k, l) is relu(isd(k) · (scan(k, l) + hws(k, l)) + b(l)).
-/
import proofs.«114178_j8143257993844_2_alg».proof.Proof.Gen.KernelIdeal.Frame
import proofs.«114178_j8143257993844_2_alg».proof.Proof.KPay

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.KernelIdeal.Pay (zeroWord closing)

/-- The output as a function of the four arrays: entry i = (k, l). -/
def G (scan hws : S100000x128.Idx → EReal) (isd : S100000x1.Idx → EReal) (brow : S1x128.Idx → EReal) :
    S100000x128.Idx → EReal := fun i =>
  max (isd (ix2 (n0 := 100000) (i 0) 0) * (scan (ix2 (n0 := 100000) (i 0) (n1 := 128) (i 1))
      + hws (ix2 (n0 := 100000) (i 0) (n1 := 128) (i 1))) + brow (ix2 0 (n1 := 128) (i 1))) zeroWord

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the output, the bias row stays at the origin. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) ≤ 19 ∧ win2_4.index t (1 : Fin 2) = 0 :=
  (by decide +kernel : ∀ t : Fin grid2.N, _)

/-- Every block row is some point's. -/
theorem idx_onto : ∀ q0 : Fin 20, ∃ t : Fin cfg2.N, win2_4.index t = ![q0.val, 0] :=
  (by decide +kernel : ∀ q0 : Fin 20, ∃ t : Fin grid2.N, win2_4.index t = ![q0.val, 0])

/-- What point t writes back is block t of `G` of the arrays as the region finds them. -/
theorem flushed_eq (c : Dev nD) (t : Fin cfg2.N) :
    (dat2 V c).flushed 4 t = ((cfg2.win 4).blk t).view.read (Elt Ideal) (G (V c main_call0_v37) (V c main_call0_v26) (V c main_call0_v11) (V c main_call0_v38)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext y
  obtain ⟨p, q, rfl⟩ : ∃ (p : Fin 5000) (q : Fin 128), y = ix2 p q := ⟨y 0, y 1, eq_ix2 y⟩
  refine (Cert.KernelIdeal.Pay.pay2_apply _ _ _ _ p q).trans ?_
  show _ = G (V c main_call0_v37) (V c main_call0_v26) (V c main_call0_v11) (V c main_call0_v38) (((cfg2.win 4).blk t).view.emb (ix2 p q))
  unfold G closing
  have hscan : iblk2 V c 0 t (ix2 p q) = V c main_call0_v37 (ix2 (n0 := 100000) (((cfg2.win 4).blk t).view.emb (ix2 p q) 0) (n1 := 128) (((cfg2.win 4).blk t).view.emb (ix2 p q) 1)) := by
    show V c main_call0_v37 (((cfg2.win 0).blk t).view.emb (ix2 p q)) = _
    refine congrArg _ (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  have hhws : iblk2 V c 1 t (ix2 p q) = V c main_call0_v26 (ix2 (n0 := 100000) (((cfg2.win 4).blk t).view.emb (ix2 p q) 0) (n1 := 128) (((cfg2.win 4).blk t).view.emb (ix2 p q) 1)) := by
    show V c main_call0_v26 (((cfg2.win 1).blk t).view.emb (ix2 p q)) = _
    refine congrArg _ (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 128 + 1 * q.val = win2_4.index t (1 : Fin 2) * 128 + 1 * q.val; omega
  have hisd : iblk2 V c 2 t (ix2 p 0) = V c main_call0_v11 (ix2 (n0 := 100000) (((cfg2.win 4).blk t).view.emb (ix2 p q) 0) 0) := by
    show V c main_call0_v11 (((cfg2.win 2).blk t).view.emb (ix2 p 0)) = _
    refine congrArg _ (funext fun a => Fin.ext ?_)
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have hb : iblk2 V c 3 t (ix2 0 q) = V c main_call0_v38 (ix2 0 (n1 := 128) (((cfg2.win 4).blk t).view.emb (ix2 p q) 1)) := by
    show V c main_call0_v38 (((cfg2.win 3).blk t).view.emb (ix2 0 q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  rw [hisd, hb, hscan, hhws]

/-- An index of the array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_call0_v39).slice (win2_4.rect t)).set ↔ _
  rw [View.set_slice_whole, Rect.mem_set_unit]
  exact Iff.rfl

/-- Every index is in some point's block: row k is in block k / 5000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region. -/
theorem final (c : Dev nD) : (dat2 V c).arrAt 4 cfg2.N
    = G (V c main_call0_v37) (V c main_call0_v26) (V c main_call0_v11) (V c main_call0_v38) :=
  (dat2 V c).arrAt_eq_of_cover 4 _ (fun t _ => flushed_eq V c t) cover

end Cert.KernelIdeal.Reg2

end
-- ==== Proof.KReg3.lean ====
/-
  The fourth pallas_call's output array: the head projection. Point t of its 4 stages rows [5000 t, 5000 t + 5000) of
  the gathered features, the whole 128 × 2 weight and the whole 1 × 2 bias row, and writes back the same rows of the
  20000 × 2 output. Entry (s, u) is (z · W)(s, u) + b(u).
-/
import proofs.«114178_j8143257993844_2_alg».proof.Proof.Gen.KernelIdeal.Frame
import proofs.«114178_j8143257993844_2_alg».proof.Proof.KPay

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.KernelIdeal.Pay (zeroWord closing)

/-- The output as a function of the three arrays: entry i = (s, u). -/
def G (z : S20000x128.Idx → EReal) (w : S128x2.Idx → EReal) (brow : S1x2.Idx → EReal) : S20000x2.Idx → EReal := fun i =>
  (∑ c : Fin 128, z (ix2 (n0 := 20000) (i 0) c) * w (ix2 c (n1 := 2) (i 1))) + brow (ix2 0 (n1 := 2) (i 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered rows move with the output, the weight and the bias stay. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 3 ∧ win3_3.index t (1 : Fin 2) = 0 :=
  (by decide +kernel : ∀ t : Fin grid3.N, _)

/-- Every block row is some point's. -/
theorem idx_onto : ∀ q0 : Fin 4, ∃ t : Fin cfg3.N, win3_3.index t = ![q0.val, 0] :=
  (by decide +kernel : ∀ q0 : Fin 4, ∃ t : Fin grid3.N, win3_3.index t = ![q0.val, 0])

/-- What point t writes back is block t of `G` of the arrays as the region finds them. -/
theorem flushed_eq (c : Dev nD) (t : Fin cfg3.N) :
    (dat3 V c).flushed 3 t = ((cfg3.win 3).blk t).view.read (Elt Ideal) (G (V c main_call0_v46) (V c main_call0_v47) (V c main_call0_v49)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x2) hz, View.ld_unit_zero (S := S1x2) hz]
  obtain ⟨e0, e1, e2, e3, e4, e5, e6, e7⟩ := idx_facts t
  funext y
  obtain ⟨p, u, rfl⟩ : ∃ (p : Fin 5000) (u : Fin 2), y = ix2 p u := ⟨y 0, y 1, eq_ix2 y⟩
  refine (Cert.KernelIdeal.Pay.pay3_apply _ _ _ p u).trans ?_
  show _ = G (V c main_call0_v46) (V c main_call0_v47) (V c main_call0_v49) (((cfg3.win 3).blk t).view.emb (ix2 p u))
  unfold G
  have hz0 : ∀ cc : Fin 128, iblk3 V c 0 t (ix2 p cc) = V c main_call0_v46 (ix2 (n0 := 20000) (((cfg3.win 3).blk t).view.emb (ix2 p u) 0) cc) := fun cc : Fin 128 => by
    show V c main_call0_v46 (((cfg3.win 0).blk t).view.emb (ix2 p cc)) = _
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * cc.val = cc.val; omega
  have hw : ∀ cc : Fin 128, iblk3 V c 1 t (ix2 cc u) = V c main_call0_v47 (ix2 cc (n1 := 2) (((cfg3.win 3).blk t).view.emb (ix2 p u) 1)) := fun cc : Fin 128 => by
    show V c main_call0_v47 (((cfg3.win 1).blk t).view.emb (ix2 cc u)) = _
    refine congrArg _ (funext fun a => Fin.ext ?_)
    match a with
    | ⟨0, _⟩ => show win3_1.index t (0 : Fin 2) * 128 + 1 * cc.val = cc.val; omega
    | ⟨1, _⟩ => show win3_1.index t (1 : Fin 2) * 2 + 1 * u.val = win3_3.index t (1 : Fin 2) * 2 + 1 * u.val; omega
  have hb : iblk3 V c 2 t (ix2 0 u) = V c main_call0_v49 (ix2 0 (n1 := 2) (((cfg3.win 3).blk t).view.emb (ix2 p u) 1)) := by
    show V c main_call0_v49 (((cfg3.win 2).blk t).view.emb (ix2 0 u)) = _
    refine congrArg _ (funext fun a => Fin.ext ?_)
    match a with
    | ⟨0, _⟩ => show win3_2.index t (0 : Fin 2) * 1 + 1 * 0 = 0; omega
    | ⟨1, _⟩ => show win3_2.index t (1 : Fin 2) * 2 + 1 * u.val = win3_3.index t (1 : Fin 2) * 2 + 1 * u.val; omega
  rw [hb]
  refine congrArg₂ (· + ·) (Finset.sum_congr rfl fun cc _ => ?_) rfl
  rw [hz0 cc, hw cc]

/-- An index of the array is in point t's block iff each coordinate is in the block's range on its axis. -/
theorem mem_blk (t : Fin cfg3.N) (i : S20000x2.Idx) :
    i ∈ ((cfg3.win 3).blk t).view.set ↔ ∀ a : Fin 2, win3_3.index t a * S5000x2.size a ≤ (i a).val
      ∧ (i a).val < win3_3.index t a * S5000x2.size a + S5000x2.size a := by
  show i ∈ ((View.whole main_call0_v50).slice (win3_3.rect t)).set ↔ _
  rw [View.set_slice_whole, Rect.mem_set_unit]
  exact Iff.rfl

/-- Every index is in some point's block: row k is in block k / 5000. -/
theorem cover (i : S20000x2.Idx) :
    ∃ t : Fin cfg3.N, (cfg3.win 3).flush t = true ∧ i ∈ ((cfg3.win 3).blk t).view.set := by
  have hi0 : (i 0).val < 20000 := (i 0).isLt
  have hi1 : (i 1).val < 2 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 2 ≤ (i 1).val ∧ (i 1).val < win3_3.index t (1 : Fin 2) * 2 + 2; omega

/-- The output array after the region. -/
theorem final (c : Dev nD) : (dat3 V c).arrAt 3 cfg3.N
    = G (V c main_call0_v46) (V c main_call0_v47) (V c main_call0_v49) :=
  (dat3 V c).arrAt_eq_of_cover 3 _ (fun t _ => flushed_eq V c t) cover

end Cert.KernelIdeal.Reg3

end
-- ==== Proof.KOps.lean ====
/- The idealized kernel program's five stretches of host operations, listed again over the plain references (the printed
  lists address each buffer through a typed reference, which carries a transport along an equation of buffer types
  that holds by computation). Each list is the printed one: the two agree operation by operation, by unfolding
  (the theorems hostOpsK_eq, closed by rfl). A table of the program's own lines; no argument is made here.
-/
import proofs.«114178_j8143257993844_2_alg».proof.Proof.Gen.KernelIdeal.Launch
import Idealize.ShloMosaic.Lib.StableHlo.Run

noncomputable section

namespace Cert.KernelIdeal.Ops

open Cert.KernelIdeal Cert.KernelIdeal.Gen Idealize.ShloMosaic Idealize.ShloMosaic.TcCoe Idealize.SL.Sem Idealize.ShloMosaic.StableHlo

variable {F : FTy → Type} [FloatOps F]

/-- Stretch 0 splits the edge list, counts the edges landing on each node, adds one, takes the inverse square root, and lays b_in out as a row. -/
abbrev ops0 : List (HloOp τ sig (Elt F)) :=
  [ unary main_arg1 main_call0_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_call0_v0 main_call0_v1 rfl shapeCasts_S1x1600000_S1600000,
    unary main_arg1 main_call0_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_call0_v2 main_call0_v3 rfl shapeCasts_S1x1600000_S1600000,
    nullary main_call0_cst ((constant S_ .f32 0x3F800000#32) : (⟨S_, .f32⟩ : BufTy).Contents (Elt F)),
    unary main_call0_cst main_call0_v4 ((broadcastInDim S1600000 ![] bcast_S_S1600000) : (⟨S_, .f32⟩ : BufTy).Contents (Elt F) → (⟨S1600000, .f32⟩ : BufTy).Contents (Elt F)),
    nullary main_call0_cst_0 ((constant S_ .f32 0x00000000#32) : (⟨S_, .f32⟩ : BufTy).Contents (Elt F)),
    unary main_call0_cst_0 main_call0_v5 ((broadcastInDim S100000 ![] bcast_S_S100000) : (⟨S_, .f32⟩ : BufTy).Contents (Elt F) → (⟨S100000, .f32⟩ : BufTy).Contents (Elt F)),
    unary main_call0_v3 main_call0_v6 ((broadcastInDim S1600000x1 ![0] bcast_S1600000_S1600000x1_0) : (⟨S1600000, .i32⟩ : BufTy).Contents (Elt F) → (⟨S1600000x1, .i32⟩ : BufTy).Contents (Elt F)),
    ternary main_call0_v5 main_call0_v6 main_call0_v4 main_call0_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_call0_cst_1 ((constant S_ .f32 0x3F800000#32) : (⟨S_, .f32⟩ : BufTy).Contents (Elt F)),
    unary main_call0_cst_1 main_call0_v8 ((broadcastInDim S100000 ![] bcast_S_S100000) : (⟨S_, .f32⟩ : BufTy).Contents (Elt F) → (⟨S100000, .f32⟩ : BufTy).Contents (Elt F)),
    binary main_call0_v7 main_call0_v8 main_call0_v9 ((addf) : (⟨S100000, .f32⟩ : BufTy).Contents (Elt F) → (⟨S100000, .f32⟩ : BufTy).Contents (Elt F) → (⟨S100000, .f32⟩ : BufTy).Contents (Elt F)),
    unary main_call0_v9 main_call0_v10 ((Host.rsqrt) : (⟨S100000, .f32⟩ : BufTy).Contents (Elt F) → (⟨S100000, .f32⟩ : BufTy).Contents (Elt F)),
    reshape main_call0_v10 main_call0_v11 rfl shapeCasts_S100000_S100000x1,
    reshape main_arg5 main_call0_v12 rfl shapeCasts_S128_S1x128 ]

set_option maxRecDepth 8192 in
theorem hostOps0_eq : (hostOps0 : List (HloOp τ sig (Elt F))) = ops0 := rfl

/-- Stretch 1 gathers the first array's rows at the edges' sources, adds them into the targets' rows, and lays b1 out as a row. -/
abbrev ops1 : List (HloOp τ sig (Elt F)) :=
  [ nullary main_call0_c ((constantI S_ 32 0#32) : (⟨S_, .i32⟩ : BufTy).Contents (Elt F)),
    unary main_call0_c main_call0_v14 ((broadcastInDim S1600000 ![] bcast_S_S1600000) : (⟨S_, .i32⟩ : BufTy).Contents (Elt F) → (⟨S1600000, .i32⟩ : BufTy).Contents (Elt F)),
    binary main_call0_v1 main_call0_v14 main_call0_v15 ((cmpi .slt) : (⟨S1600000, .i32⟩ : BufTy).Contents (Elt F) → (⟨S1600000, .i32⟩ : BufTy).Contents (Elt F) → (⟨S1600000, .i1⟩ : BufTy).Contents (Elt F)),
    nullary main_call0_c_2 ((constantI S_ 32 100000#32) : (⟨S_, .i32⟩ : BufTy).Contents (Elt F)),
    unary main_call0_c_2 main_call0_v16 ((broadcastInDim S1600000 ![] bcast_S_S1600000) : (⟨S_, .i32⟩ : BufTy).Contents (Elt F) → (⟨S1600000, .i32⟩ : BufTy).Contents (Elt F)),
    binary main_call0_v1 main_call0_v16 main_call0_v17 ((addi) : (⟨S1600000, .i32⟩ : BufTy).Contents (Elt F) → (⟨S1600000, .i32⟩ : BufTy).Contents (Elt F) → (⟨S1600000, .i32⟩ : BufTy).Contents (Elt F)),
    ternary main_call0_v15 main_call0_v17 main_call0_v1 main_call0_v18 ((select) : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_call0_v18 main_call0_v19 ((broadcastInDim S1600000x1 ![0] bcast_S1600000_S1600000x1_0) : (⟨S1600000, .i32⟩ : BufTy).Contents (Elt F) → (⟨S1600000x1, .i32⟩ : BufTy).Contents (Elt F)),
    binary main_call0_v13 main_call0_v19 main_call0_v20 ((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)),
    unary main_call0_v20 main_call0_v21 ((extf .f32 · bitsLt_bf16_f32) : (⟨S1600000x128, .bf16⟩ : BufTy).Contents (Elt F) → (⟨S1600000x128, .f32⟩ : BufTy).Contents (Elt F)),
    nullary main_call0_cst_3 ((constant S_ .f32 0x00000000#32) : (⟨S_, .f32⟩ : BufTy).Contents (Elt F)),
    unary main_call0_cst_3 main_call0_v22 ((broadcastInDim S100000x128 ![] bcast_S_S100000x128) : (⟨S_, .f32⟩ : BufTy).Contents (Elt F) → (⟨S100000x128, .f32⟩ : BufTy).Contents (Elt F)),
    unary main_call0_v3 main_call0_v23 ((broadcastInDim S1600000x1 ![0] bcast_S1600000_S1600000x1_0) : (⟨S1600000, .i32⟩ : BufTy).Contents (Elt F) → (⟨S1600000x1, .i32⟩ : BufTy).Contents (Elt F)),
    ternary main_call0_v22 main_call0_v23 main_call0_v21 main_call0_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    reshape main_arg7 main_call0_v25 rfl shapeCasts_S128_S1x128 ]

set_option maxRecDepth 8192 in
theorem hostOps1_eq : (hostOps1 : List (HloOp τ sig (Elt F))) = ops1 := rfl

/-- Stretch 2 does the same with the second array and b2. -/
abbrev ops2 : List (HloOp τ sig (Elt F)) :=
  [ nullary main_call0_c_4 ((constantI S_ 32 0#32) : (⟨S_, .i32⟩ : BufTy).Contents (Elt F)),
    unary main_call0_c_4 main_call0_v27 ((broadcastInDim S1600000 ![] bcast_S_S1600000) : (⟨S_, .i32⟩ : BufTy).Contents (Elt F) → (⟨S1600000, .i32⟩ : BufTy).Contents (Elt F)),
    binary main_call0_v1 main_call0_v27 main_call0_v28 ((cmpi .slt) : (⟨S1600000, .i32⟩ : BufTy).Contents (Elt F) → (⟨S1600000, .i32⟩ : BufTy).Contents (Elt F) → (⟨S1600000, .i1⟩ : BufTy).Contents (Elt F)),
    nullary main_call0_c_5 ((constantI S_ 32 100000#32) : (⟨S_, .i32⟩ : BufTy).Contents (Elt F)),
    unary main_call0_c_5 main_call0_v29 ((broadcastInDim S1600000 ![] bcast_S_S1600000) : (⟨S_, .i32⟩ : BufTy).Contents (Elt F) → (⟨S1600000, .i32⟩ : BufTy).Contents (Elt F)),
    binary main_call0_v1 main_call0_v29 main_call0_v30 ((addi) : (⟨S1600000, .i32⟩ : BufTy).Contents (Elt F) → (⟨S1600000, .i32⟩ : BufTy).Contents (Elt F) → (⟨S1600000, .i32⟩ : BufTy).Contents (Elt F)),
    ternary main_call0_v28 main_call0_v30 main_call0_v1 main_call0_v31 ((select) : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_call0_v31 main_call0_v32 ((broadcastInDim S1600000x1 ![0] bcast_S1600000_S1600000x1_0) : (⟨S1600000, .i32⟩ : BufTy).Contents (Elt F) → (⟨S1600000x1, .i32⟩ : BufTy).Contents (Elt F)),
    binary main_call0_v26 main_call0_v32 main_call0_v33 ((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)),
    unary main_call0_v33 main_call0_v34 ((extf .f32 · bitsLt_bf16_f32) : (⟨S1600000x128, .bf16⟩ : BufTy).Contents (Elt F) → (⟨S1600000x128, .f32⟩ : BufTy).Contents (Elt F)),
    nullary main_call0_cst_6 ((constant S_ .f32 0x00000000#32) : (⟨S_, .f32⟩ : BufTy).Contents (Elt F)),
    unary main_call0_cst_6 main_call0_v35 ((broadcastInDim S100000x128 ![] bcast_S_S100000x128) : (⟨S_, .f32⟩ : BufTy).Contents (Elt F) → (⟨S100000x128, .f32⟩ : BufTy).Contents (Elt F)),
    unary main_call0_v3 main_call0_v36 ((broadcastInDim S1600000x1 ![0] bcast_S1600000_S1600000x1_0) : (⟨S1600000, .i32⟩ : BufTy).Contents (Elt F) → (⟨S1600000x1, .i32⟩ : BufTy).Contents (Elt F)),
    ternary main_call0_v35 main_call0_v36 main_call0_v34 main_call0_v37 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    reshape main_arg9 main_call0_v38 rfl shapeCasts_S128_S1x128 ]

set_option maxRecDepth 8192 in
theorem hostOps2_eq : (hostOps2 : List (HloOp τ sig (Elt F))) = ops2 := rfl

/-- Stretch 3 gathers the selected nodes' rows and joins the two head weights and the two head biases. -/
abbrev ops3 : List (HloOp τ sig (Elt F)) :=
  [ nullary main_call0_c_7 ((constantI S_ 32 0#32) : (⟨S_, .i32⟩ : BufTy).Contents (Elt F)),
    unary main_call0_c_7 main_call0_v40 ((broadcastInDim S20000 ![] bcast_S_S20000) : (⟨S_, .i32⟩ : BufTy).Contents (Elt F) → (⟨S20000, .i32⟩ : BufTy).Contents (Elt F)),
    binary main_arg2 main_call0_v40 main_call0_v41 ((cmpi .slt) : (⟨S20000, .i32⟩ : BufTy).Contents (Elt F) → (⟨S20000, .i32⟩ : BufTy).Contents (Elt F) → (⟨S20000, .i1⟩ : BufTy).Contents (Elt F)),
    nullary main_call0_c_8 ((constantI S_ 32 100000#32) : (⟨S_, .i32⟩ : BufTy).Contents (Elt F)),
    unary main_call0_c_8 main_call0_v42 ((broadcastInDim S20000 ![] bcast_S_S20000) : (⟨S_, .i32⟩ : BufTy).Contents (Elt F) → (⟨S20000, .i32⟩ : BufTy).Contents (Elt F)),
    binary main_arg2 main_call0_v42 main_call0_v43 ((addi) : (⟨S20000, .i32⟩ : BufTy).Contents (Elt F) → (⟨S20000, .i32⟩ : BufTy).Contents (Elt F) → (⟨S20000, .i32⟩ : BufTy).Contents (Elt F)),
    ternary main_call0_v41 main_call0_v43 main_arg2 main_call0_v44 ((select) : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_call0_v44 main_call0_v45 ((broadcastInDim S20000x1 ![0] bcast_S20000_S20000x1_0) : (⟨S20000, .i32⟩ : BufTy).Contents (Elt F) → (⟨S20000x1, .i32⟩ : BufTy).Contents (Elt F)),
    binary main_call0_v39 main_call0_v45 main_call0_v46 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    binary main_arg10 main_arg12 main_call0_v47 ((fun a b => concatenate S128x2 1 [⟨S128x1, a⟩, ⟨S128x1, b⟩] concatenates_S128x1_S128x1_S128x2_d1) : (⟨S128x1, .f32⟩ : BufTy).Contents (Elt F) → (⟨S128x1, .f32⟩ : BufTy).Contents (Elt F) → (⟨S128x2, .f32⟩ : BufTy).Contents (Elt F)),
    binary main_arg11 main_arg13 main_call0_v48 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    reshape main_call0_v48 main_call0_v49 rfl shapeCasts_S2_S1x2 ]

set_option maxRecDepth 8192 in
theorem hostOps3_eq : (hostOps3 : List (HloOp τ sig (Elt F))) = ops3 := rfl

/-- Stretch 4 is the sampling arithmetic on the head's two columns. -/
abbrev ops4 : List (HloOp τ sig (Elt F)) :=
  [ unary main_call0_v50 main_call0_v51 ((extractStridedSlice S20000x1 ![0, 0] · slices_S20000x2_S20000x1_0_0) : (⟨S20000x2, .f32⟩ : BufTy).Contents (Elt F) → (⟨S20000x1, .f32⟩ : BufTy).Contents (Elt F)),
    reshape main_call0_v51 main_call0_v52 rfl shapeCasts_S20000x1_S20000,
    unary main_call0_v50 main_call0_v53 ((extractStridedSlice S20000x1 ![0, 1] · slices_S20000x2_S20000x1_0_1) : (⟨S20000x2, .f32⟩ : BufTy).Contents (Elt F) → (⟨S20000x1, .f32⟩ : BufTy).Contents (Elt F)),
    reshape main_call0_v53 main_call0_v54 rfl shapeCasts_S20000x1_S20000,
    nullary main_call0_cst_9 ((constant S_ .f32 0xC1A00000#32) : (⟨S_, .f32⟩ : BufTy).Contents (Elt F)),
    nullary main_call0_cst_10 ((constant S_ .f32 0x40000000#32) : (⟨S_, .f32⟩ : BufTy).Contents (Elt F)),
    unary main_call0_cst_9 main_call0_call0_v0 ((id) : (⟨S_, .f32⟩ : BufTy).Contents (Elt F) → (⟨S_, .f32⟩ : BufTy).Contents (Elt F)),
    unary main_call0_call0_v0 main_call0_call0_v1 ((broadcastInDim S20000 ![] bcast_S_S20000) : (⟨S_, .f32⟩ : BufTy).Contents (Elt F) → (⟨S20000, .f32⟩ : BufTy).Contents (Elt F)),
    binary main_call0_call0_v1 main_call0_v54 main_call0_call0_v2 ((maximumf) : (⟨S20000, .f32⟩ : BufTy).Contents (Elt F) → (⟨S20000, .f32⟩ : BufTy).Contents (Elt F) → (⟨S20000, .f32⟩ : BufTy).Contents (Elt F)),
    unary main_call0_cst_10 main_call0_call0_v3 ((id) : (⟨S_, .f32⟩ : BufTy).Contents (Elt F) → (⟨S_, .f32⟩ : BufTy).Contents (Elt F)),
    unary main_call0_call0_v3 main_call0_call0_v4 ((broadcastInDim S20000 ![] bcast_S_S20000) : (⟨S_, .f32⟩ : BufTy).Contents (Elt F) → (⟨S20000, .f32⟩ : BufTy).Contents (Elt F)),
    binary main_call0_call0_v4 main_call0_call0_v2 main_call0_v55 ((minimumf) : (⟨S20000, .f32⟩ : BufTy).Contents (Elt F) → (⟨S20000, .f32⟩ : BufTy).Contents (Elt F) → (⟨S20000, .f32⟩ : BufTy).Contents (Elt F)),
    unary main_call0_v55 main_call0_v56 ((Host.exp) : (⟨S20000, .f32⟩ : BufTy).Contents (Elt F) → (⟨S20000, .f32⟩ : BufTy).Contents (Elt F)),
    binary main_call0_v56 main_arg3 main_call0_v57 ((mulf) : (⟨S20000, .f32⟩ : BufTy).Contents (Elt F) → (⟨S20000, .f32⟩ : BufTy).Contents (Elt F) → (⟨S20000, .f32⟩ : BufTy).Contents (Elt F)),
    binary main_call0_v52 main_call0_v57 main_call0_v58 ((addf) : (⟨S20000, .f32⟩ : BufTy).Contents (Elt F) → (⟨S20000, .f32⟩ : BufTy).Contents (Elt F) → (⟨S20000, .f32⟩ : BufTy).Contents (Elt F)),
    unary main_call0_v58 main_v0_0 ((Host.tanh) : (⟨S20000, .f32⟩ : BufTy).Contents (Elt F) → (⟨S20000, .f32⟩ : BufTy).Contents (Elt F)),
    nullary main_call0_cst_11 ((constant S_ .f32 0xBF000000#32) : (⟨S_, .f32⟩ : BufTy).Contents (Elt F)),
    unary main_call0_cst_11 main_call0_v60 ((broadcastInDim S20000 ![] bcast_S_S20000) : (⟨S_, .f32⟩ : BufTy).Contents (Elt F) → (⟨S20000, .f32⟩ : BufTy).Contents (Elt F)),
    binary main_call0_v60 main_arg3 main_call0_v61 ((mulf) : (⟨S20000, .f32⟩ : BufTy).Contents (Elt F) → (⟨S20000, .f32⟩ : BufTy).Contents (Elt F) → (⟨S20000, .f32⟩ : BufTy).Contents (Elt F)),
    binary main_call0_v61 main_arg3 main_call0_v62 ((mulf) : (⟨S20000, .f32⟩ : BufTy).Contents (Elt F) → (⟨S20000, .f32⟩ : BufTy).Contents (Elt F) → (⟨S20000, .f32⟩ : BufTy).Contents (Elt F)),
    binary main_call0_v62 main_call0_v55 main_call0_v63 ((subf) : (⟨S20000, .f32⟩ : BufTy).Contents (Elt F) → (⟨S20000, .f32⟩ : BufTy).Contents (Elt F) → (⟨S20000, .f32⟩ : BufTy).Contents (Elt F)),
    nullary main_call0_cst_12 ((constant S_ .f32 0x3F000000#32) : (⟨S_, .f32⟩ : BufTy).Contents (Elt F)),
    nullary main_call0_cst_13 ((constant S_ .f32 0x3FEB3F8E#32) : (⟨S_, .f32⟩ : BufTy).Contents (Elt F)),
    binary main_call0_cst_12 main_call0_cst_13 main_call0_v64 ((mulf) : (⟨S_, .f32⟩ : BufTy).Contents (Elt F) → (⟨S_, .f32⟩ : BufTy).Contents (Elt F) → (⟨S_, .f32⟩ : BufTy).Contents (Elt F)),
    unary main_call0_v64 main_call0_v65 ((broadcastInDim S20000 ![] bcast_S_S20000) : (⟨S_, .f32⟩ : BufTy).Contents (Elt F) → (⟨S20000, .f32⟩ : BufTy).Contents (Elt F)),
    binary main_call0_v63 main_call0_v65 main_call0_v66 ((subf) : (⟨S20000, .f32⟩ : BufTy).Contents (Elt F) → (⟨S20000, .f32⟩ : BufTy).Contents (Elt F) → (⟨S20000, .f32⟩ : BufTy).Contents (Elt F)),
    nullary main_call0_cst_14 ((constant S_ .f32 0x00000000#32) : (⟨S_, .f32⟩ : BufTy).Contents (Elt F)),
    binary main_call0_v66 main_call0_cst_14 main_call0_v67 ((fun x v => Host.reduceAdd x v reducesTo_S20000_S_d0 h_S_) : (⟨S20000, .f32⟩ : BufTy).Contents (Elt F) → (⟨S_, .f32⟩ : BufTy).Contents (Elt F) → (⟨S_, .f32⟩ : BufTy).Contents (Elt F)),
    binary main_v0_0 main_v0_0 main_call0_v68 ((mulf) : (⟨S20000, .f32⟩ : BufTy).Contents (Elt F) → (⟨S20000, .f32⟩ : BufTy).Contents (Elt F) → (⟨S20000, .f32⟩ : BufTy).Contents (Elt F)),
    nullary main_call0_cst_15 ((constant S_ .f32 0x3F800000#32) : (⟨S_, .f32⟩ : BufTy).Contents (Elt F)),
    unary main_call0_cst_15 main_call0_v69 ((broadcastInDim S20000 ![] bcast_S_S20000) : (⟨S_, .f32⟩ : BufTy).Contents (Elt F) → (⟨S20000, .f32⟩ : BufTy).Contents (Elt F)),
    binary main_call0_v69 main_call0_v68 main_call0_v70 ((subf) : (⟨S20000, .f32⟩ : BufTy).Contents (Elt F) → (⟨S20000, .f32⟩ : BufTy).Contents (Elt F) → (⟨S20000, .f32⟩ : BufTy).Contents (Elt F)),
    nullary main_call0_cst_16 ((constant S_ .f32 0x358637BD#32) : (⟨S_, .f32⟩ : BufTy).Contents (Elt F)),
    unary main_call0_cst_16 main_call0_v71 ((broadcastInDim S20000 ![] bcast_S_S20000) : (⟨S_, .f32⟩ : BufTy).Contents (Elt F) → (⟨S20000, .f32⟩ : BufTy).Contents (Elt F)),
    binary main_call0_v70 main_call0_v71 main_call0_v72 ((addf) : (⟨S20000, .f32⟩ : BufTy).Contents (Elt F) → (⟨S20000, .f32⟩ : BufTy).Contents (Elt F) → (⟨S20000, .f32⟩ : BufTy).Contents (Elt F)),
    unary main_call0_v72 main_call0_v73 ((Host.log) : (⟨S20000, .f32⟩ : BufTy).Contents (Elt F) → (⟨S20000, .f32⟩ : BufTy).Contents (Elt F)),
    nullary main_call0_cst_17 ((constant S_ .f32 0x00000000#32) : (⟨S_, .f32⟩ : BufTy).Contents (Elt F)),
    binary main_call0_v73 main_call0_cst_17 main_call0_v74 ((fun x v => Host.reduceAdd x v reducesTo_S20000_S_d0 h_S_) : (⟨S20000, .f32⟩ : BufTy).Contents (Elt F) → (⟨S_, .f32⟩ : BufTy).Contents (Elt F) → (⟨S_, .f32⟩ : BufTy).Contents (Elt F)),
    binary main_call0_v67 main_call0_v74 main_v0_1 ((subf) : (⟨S_, .f32⟩ : BufTy).Contents (Elt F) → (⟨S_, .f32⟩ : BufTy).Contents (Elt F) → (⟨S_, .f32⟩ : BufTy).Contents (Elt F)) ]

set_option maxRecDepth 8192 in
theorem hostOps4_eq : (hostOps4 : List (HloOp τ sig (Elt F))) = ops4 := rfl

end Cert.KernelIdeal.Ops

end
-- ==== Proof.KChain.lean ====
/-
  The idealized kernel's program read from its last buffer back to its arguments. The program is five stretches of host
  operations around four pallas_calls; each segment's exit contents are the next one's entry contents. A buffer that
  a segment does not write keeps what it held, so every value a later segment reads is traced back to the segment
  that wrote it:
  * the first stretch splits the edge list into sources and targets, counts the edges landing on every node, adds
    one and takes the inverse square root (isd), and lays b_in out as a row;
  * pallas_call 0 leaves ((x · W_in + b_in) · W1) · isd;
  * each of the next two stretches gathers the rows of the previous array at the edges' sources and adds them
    into the rows of the edges' targets, and lays the layer's bias out as a row;
  * pallas_calls 1 and 2 close a layer (relu(isd · (sum + own row) + b)), the first also applying W2 and isd;
  * the fourth stretch gathers the selected rows and joins the two head weights and the two head biases;
  * pallas_call 3 is the head projection; the last stretch is the sampling arithmetic on its two columns.
-/
import proofs.«114178_j8143257993844_2_alg».proof.Proof.Gen.KernelIdeal.Frame
import proofs.«114178_j8143257993844_2_alg».proof.Proof.KReg0
import proofs.«114178_j8143257993844_2_alg».proof.Proof.KReg1
import proofs.«114178_j8143257993844_2_alg».proof.Proof.KReg2
import proofs.«114178_j8143257993844_2_alg».proof.Proof.KReg3
import Idealize.ShloMosaic.Lib.StableHlo.Run
import proofs.«114178_j8143257993844_2_alg».proof.Proof.KOps

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg) (c : Dev nD)

/-! ## The host stretches as functions of what they read -/

/-- The edges' sources: row 0 of the edge list. -/
def rowV (e : IVec S2x1600000 32) : IVec S1600000 32 :=
  shapeCast S1600000 (extractStridedSlice S1x1600000 ![0, 0] e slices_S2x1600000_S1x1600000_0_0) shapeCasts_S1x1600000_S1600000

/-- The edges' targets: row 1 of the edge list. -/
def colV (e : IVec S2x1600000 32) : IVec S1600000 32 :=
  shapeCast S1600000 (extractStridedSlice S1x1600000 ![1, 0] e slices_S2x1600000_S1x1600000_1_0) shapeCasts_S1x1600000_S1600000

/-- The targets as a column of scatter indices. -/
def colB (cv : IVec S1600000 32) : IVec S1600000x1 32 := broadcastInDim S1600000x1 ![0] bcast_S1600000_S1600000x1_0 cv

/-- The inverse square root of one plus the number of edges landing on each node. -/
def isdV (cv : IVec S1600000 32) : FVec Ideal S100000 .f32 :=
  Host.rsqrt (addf
    (Host.scatterAdd scatter_S100000_S1600000x1_S1600000_n_0_0_1
      (broadcastInDim S100000 ![] bcast_S_S100000 (constant S_ .f32 0x00000000#32)) (colB cv)
      (broadcastInDim S1600000 ![] bcast_S_S1600000 (constant S_ .f32 0x3F800000#32)))
    (broadcastInDim S100000 ![] bcast_S_S100000 (constant S_ .f32 0x3F800000#32)))

/-- The same as a column. -/
def isdC (cv : IVec S1600000 32) : FVec Ideal S100000x1 .f32 := shapeCast S100000x1 (isdV cv) shapeCasts_S100000_S100000x1

/-- A bias vector laid out as a row. -/
def brow (b : FVec Ideal S128 .f32) : FVec Ideal S1x128 .f32 := shapeCast S1x128 b shapeCasts_S128_S1x128

/-- The sources as gather indices: a negative one counted from the end, as a column. -/
def rowN (rv : IVec S1600000 32) : IVec S1600000x1 32 :=
  broadcastInDim S1600000x1 ![0] bcast_S1600000_S1600000x1_0
    (select (cmpi .slt rv (broadcastInDim S1600000 ![] bcast_S_S1600000 (constantI S_ 32 0#32)))
      (addi rv (broadcastInDim S1600000 ![] bcast_S_S1600000 (constantI S_ 32 100000#32))) rv)

/-- The rows of `hws` at the edges' sources, added into the rows of the edges' targets. -/
def scan (hws : FVec Ideal S100000x128 .bf16) (rv cv : IVec S1600000 32) : FVec Ideal S100000x128 .f32 :=
  Host.scatterAdd scatter_S100000x128_S1600000x1_S1600000x128_1_0_0_1
    (broadcastInDim S100000x128 ![] bcast_S_S100000x128 (constant S_ .f32 0x00000000#32)) (colB cv)
    (extf .f32 (Host.gather gather_S100000x128_S1600000x1_S1600000x128_1_0_n_n_0_1_1128 hws (rowN rv)) bitsLt_bf16_f32)

/-- The selected nodes as gather indices. -/
def sgN (sg : IVec S20000 32) : IVec S20000x1 32 :=
  broadcastInDim S20000x1 ![0] bcast_S20000_S20000x1_0
    (select (cmpi .slt sg (broadcastInDim S20000 ![] bcast_S_S20000 (constantI S_ 32 0#32)))
      (addi sg (broadcastInDim S20000 ![] bcast_S_S20000 (constantI S_ 32 100000#32))) sg)

/-- The selected rows of the last layer. -/
def zsel (h2 : FVec Ideal S100000x128 .f32) (sg : IVec S20000 32) : FVec Ideal S20000x128 .f32 :=
  Host.gather gather_S100000x128_S20000x1_S20000x128_1_0_n_n_0_1_1128 h2 (sgN sg)

/-- The two head weights side by side. -/
def wcat (wmu wls : FVec Ideal S128x1 .f32) : FVec Ideal S128x2 .f32 :=
  concatenate S128x2 1 [⟨S128x1, wmu⟩, ⟨S128x1, wls⟩] concatenates_S128x1_S128x1_S128x2_d1

/-- The two head biases as a 1 × 2 row. -/
def bcat (bmu bls : FVec Ideal S1 .f32) : FVec Ideal S1x2 .f32 :=
  shapeCast S1x2 (concatenate S2 0 [⟨S1, bmu⟩, ⟨S1, bls⟩] concatenates_S1_S1_S2_d0) shapeCasts_S2_S1x2

/-- Column 0 of the head's output. -/
def muOf (ml : FVec Ideal S20000x2 .f32) : FVec Ideal S20000 .f32 :=
  shapeCast S20000 (extractStridedSlice S20000x1 ![0, 0] ml slices_S20000x2_S20000x1_0_0) shapeCasts_S20000x1_S20000

/-- Column 1 of the head's output. -/
def lsOf (ml : FVec Ideal S20000x2 .f32) : FVec Ideal S20000 .f32 :=
  shapeCast S20000 (extractStridedSlice S20000x1 ![0, 1] ml slices_S20000x2_S20000x1_0_1) shapeCasts_S20000x1_S20000

/-- The log standard deviation clipped into [−20, 2]. -/
def lsClip (ls : FVec Ideal S20000 .f32) : FVec Ideal S20000 .f32 :=
  minimumf (broadcastInDim S20000 ![] bcast_S_S20000 (id (constant S_ .f32 0x40000000#32)))
    (maximumf (broadcastInDim S20000 ![] bcast_S_S20000 (id (constant S_ .f32 0xC1A00000#32))) ls)

/-- The first result: tanh(mu + exp(log_std) · noise). -/
def actOf (mu ls noise : FVec Ideal S20000 .f32) : FVec Ideal S20000 .f32 :=
  Host.tanh (addf mu (mulf (Host.exp (lsClip ls)) noise))

/-- The second result: the Gaussian log-density of the noise minus the log-Jacobian of the tanh, summed. -/
def logpOf (mu ls noise : FVec Ideal S20000 .f32) : FVec Ideal S_ .f32 :=
  subf
    (Host.reduceAdd
      (subf (subf (mulf (mulf (broadcastInDim S20000 ![] bcast_S_S20000 (constant S_ .f32 0xBF000000#32)) noise) noise) (lsClip ls))
        (broadcastInDim S20000 ![] bcast_S_S20000 (mulf (constant S_ .f32 0x3F000000#32) (constant S_ .f32 0x3FEB3F8E#32))))
      (constant S_ .f32 0x00000000#32) reducesTo_S20000_S_d0 h_S_)
    (Host.reduceAdd
      (Host.log (addf (subf (broadcastInDim S20000 ![] bcast_S_S20000 (constant S_ .f32 0x3F800000#32))
          (mulf (actOf mu ls noise) (actOf mu ls noise)))
        (broadcastInDim S20000 ![] bcast_S_S20000 (constant S_ .f32 0x358637BD#32))))
      (constant S_ .f32 0x00000000#32) reducesTo_S20000_S_d0 h_S_)

/-! ## The arrays the four pallas_calls leave, as functions of the arguments -/

section Arrays
variable (x : FVec Ideal S100000x32 .f32) (e : IVec S2x1600000 32) (sg : IVec S20000 32)
  (win : FVec Ideal S32x128 .f32) (bin : FVec Ideal S128 .f32) (w1 : FVec Ideal S128x128 .f32) (b1 : FVec Ideal S128 .f32)
  (w2 : FVec Ideal S128x128 .f32) (b2 : FVec Ideal S128 .f32) (wmu : FVec Ideal S128x1 .f32) (bmu : FVec Ideal S1 .f32)
  (wls : FVec Ideal S128x1 .f32) (bls : FVec Ideal S1 .f32)

/-- pallas_call 0's output. -/
def hw1s : FVec Ideal S100000x128 .bf16 := Reg0.G x win (brow bin) w1 (isdC (colV e))
/-- pallas_call 1's output. -/
def hw2s : FVec Ideal S100000x128 .bf16 :=
  Reg1.G (scan (hw1s x e win bin w1) (rowV e) (colV e)) (hw1s x e win bin w1) (isdC (colV e)) (brow b1) w2
/-- pallas_call 2's output. -/
def h2 : FVec Ideal S100000x128 .f32 :=
  Reg2.G (scan (hw2s x e win bin w1 b1 w2) (rowV e) (colV e)) (hw2s x e win bin w1 b1 w2) (isdC (colV e)) (brow b2)
/-- pallas_call 3's output. -/
def mlog : FVec Ideal S20000x2 .f32 :=
  Reg3.G (zsel (h2 x e win bin w1 b1 w2 b2) sg) (wcat wmu wls) (bcat bmu bls)

end Arrays

/-! ## The first stretch -/

theorem W1_v1 : W1 m ρ c (Proc.devRef .tc main_call0_v1) = rowV (m ((c : Thread nD τ).loc main_arg1)) := by
  unfold rowV
  dsimp only [W1]; rw [Ops.hostOps0_eq]; dsimp only [Ops.ops0]; after_results <;> rfl
theorem W1_v3 : W1 m ρ c (Proc.devRef .tc main_call0_v3) = colV (m ((c : Thread nD τ).loc main_arg1)) := by
  unfold colV
  dsimp only [W1]; rw [Ops.hostOps0_eq]; dsimp only [Ops.ops0]; after_results <;> rfl
theorem W1_v11 : W1 m ρ c (Proc.devRef .tc main_call0_v11) = isdC (colV (m ((c : Thread nD τ).loc main_arg1))) := by
  unfold isdC isdV colB colV
  dsimp only [W1]; rw [Ops.hostOps0_eq]; dsimp only [Ops.ops0]; after_results <;> rfl
theorem W1_v12 : W1 m ρ c (Proc.devRef .tc main_call0_v12) = brow (m ((c : Thread nD τ).loc main_arg5)) := by
  unfold brow
  dsimp only [W1]; rw [Ops.hostOps0_eq]; dsimp only [Ops.ops0]; after_results <;> rfl
theorem W1_arg0 : W1 m ρ c (Proc.devRef .tc main_arg0) = m ((c : Thread nD τ).loc main_arg0) := by
  dsimp only [W1]; rw [Ops.hostOps0_eq]; dsimp only [Ops.ops0]; after_results <;> rfl
theorem W1_arg4 : W1 m ρ c (Proc.devRef .tc main_arg4) = m ((c : Thread nD τ).loc main_arg4) := by
  dsimp only [W1]; rw [Ops.hostOps0_eq]; dsimp only [Ops.ops0]; after_results <;> rfl
theorem W1_arg6 : W1 m ρ c (Proc.devRef .tc main_arg6) = m ((c : Thread nD τ).loc main_arg6) := by
  dsimp only [W1]; rw [Ops.hostOps0_eq]; dsimp only [Ops.ops0]; after_results <;> rfl

/-! ## What each later segment reads of the arguments: no segment writes an argument -/

theorem W1_arg7 : W1 m ρ c (Proc.devRef .tc main_arg7) = m ((c : Thread nD τ).loc main_arg7) := by
  dsimp only [W1]; rw [Ops.hostOps0_eq]; dsimp only [Ops.ops0]; after_results <;> rfl
theorem W2_arg7 : W2 m ρ c (Proc.devRef .tc main_arg7) = m ((c : Thread nD τ).loc main_arg7) :=
  (W2_of_ne m ρ c main_arg7 (by decide)).trans (W1_arg7 m ρ c)
theorem W1_arg8 : W1 m ρ c (Proc.devRef .tc main_arg8) = m ((c : Thread nD τ).loc main_arg8) := by
  dsimp only [W1]; rw [Ops.hostOps0_eq]; dsimp only [Ops.ops0]; after_results <;> rfl
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (by dsimp only [W3]; rw [Ops.hostOps1_eq]; dsimp only [Ops.ops1]; after_results <;> rfl : W3 m ρ c (Proc.devRef .tc main_arg8) = W2 m ρ c (Proc.devRef .tc main_arg8)).trans (W2_arg8 m ρ c)
theorem W1_arg9 : W1 m ρ c (Proc.devRef .tc main_arg9) = m ((c : Thread nD τ).loc main_arg9) := by
  dsimp only [W1]; rw [Ops.hostOps0_eq]; dsimp only [Ops.ops0]; after_results <;> rfl
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (by dsimp only [W3]; rw [Ops.hostOps1_eq]; dsimp only [Ops.ops1]; after_results <;> rfl : W3 m ρ c (Proc.devRef .tc main_arg9) = W2 m ρ c (Proc.devRef .tc main_arg9)).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W1_arg2 : W1 m ρ c (Proc.devRef .tc main_arg2) = m ((c : Thread nD τ).loc main_arg2) := by
  dsimp only [W1]; rw [Ops.hostOps0_eq]; dsimp only [Ops.ops0]; after_results <;> rfl
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (by dsimp only [W3]; rw [Ops.hostOps1_eq]; dsimp only [Ops.ops1]; after_results <;> rfl : W3 m ρ c (Proc.devRef .tc main_arg2) = W2 m ρ c (Proc.devRef .tc main_arg2)).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (by dsimp only [W5]; rw [Ops.hostOps2_eq]; dsimp only [Ops.ops2]; after_results <;> rfl : W5 m ρ c (Proc.devRef .tc main_arg2) = W4 m ρ c (Proc.devRef .tc main_arg2)).trans (W4_arg2 m ρ c)
theorem W6_arg2 : W6 m ρ c (Proc.devRef .tc main_arg2) = m ((c : Thread nD τ).loc main_arg2) :=
  (W6_of_ne m ρ c main_arg2 (by decide)).trans (W5_arg2 m ρ c)
theorem W1_arg10 : W1 m ρ c (Proc.devRef .tc main_arg10) = m ((c : Thread nD τ).loc main_arg10) := by
  dsimp only [W1]; rw [Ops.hostOps0_eq]; dsimp only [Ops.ops0]; after_results <;> rfl
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (by dsimp only [W3]; rw [Ops.hostOps1_eq]; dsimp only [Ops.ops1]; after_results <;> rfl : W3 m ρ c (Proc.devRef .tc main_arg10) = W2 m ρ c (Proc.devRef .tc main_arg10)).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (by dsimp only [W5]; rw [Ops.hostOps2_eq]; dsimp only [Ops.ops2]; after_results <;> rfl : W5 m ρ c (Proc.devRef .tc main_arg10) = W4 m ρ c (Proc.devRef .tc main_arg10)).trans (W4_arg10 m ρ c)
theorem W6_arg10 : W6 m ρ c (Proc.devRef .tc main_arg10) = m ((c : Thread nD τ).loc main_arg10) :=
  (W6_of_ne m ρ c main_arg10 (by decide)).trans (W5_arg10 m ρ c)
theorem W1_arg11 : W1 m ρ c (Proc.devRef .tc main_arg11) = m ((c : Thread nD τ).loc main_arg11) := by
  dsimp only [W1]; rw [Ops.hostOps0_eq]; dsimp only [Ops.ops0]; after_results <;> rfl
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (by dsimp only [W3]; rw [Ops.hostOps1_eq]; dsimp only [Ops.ops1]; after_results <;> rfl : W3 m ρ c (Proc.devRef .tc main_arg11) = W2 m ρ c (Proc.devRef .tc main_arg11)).trans (W2_arg11 m ρ c)
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) :=
  (by dsimp only [W5]; rw [Ops.hostOps2_eq]; dsimp only [Ops.ops2]; after_results <;> rfl : W5 m ρ c (Proc.devRef .tc main_arg11) = W4 m ρ c (Proc.devRef .tc main_arg11)).trans (W4_arg11 m ρ c)
theorem W6_arg11 : W6 m ρ c (Proc.devRef .tc main_arg11) = m ((c : Thread nD τ).loc main_arg11) :=
  (W6_of_ne m ρ c main_arg11 (by decide)).trans (W5_arg11 m ρ c)
theorem W1_arg12 : W1 m ρ c (Proc.devRef .tc main_arg12) = m ((c : Thread nD τ).loc main_arg12) := by
  dsimp only [W1]; rw [Ops.hostOps0_eq]; dsimp only [Ops.ops0]; after_results <;> rfl
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) :=
  (by dsimp only [W3]; rw [Ops.hostOps1_eq]; dsimp only [Ops.ops1]; after_results <;> rfl : W3 m ρ c (Proc.devRef .tc main_arg12) = W2 m ρ c (Proc.devRef .tc main_arg12)).trans (W2_arg12 m ρ c)
theorem W4_arg12 : W4 m ρ c (Proc.devRef .tc main_arg12) = m ((c : Thread nD τ).loc main_arg12) :=
  (W4_of_ne m ρ c main_arg12 (by decide)).trans (W3_arg12 m ρ c)
theorem W5_arg12 : W5 m ρ c (Proc.devRef .tc main_arg12) = m ((c : Thread nD τ).loc main_arg12) :=
  (by dsimp only [W5]; rw [Ops.hostOps2_eq]; dsimp only [Ops.ops2]; after_results <;> rfl : W5 m ρ c (Proc.devRef .tc main_arg12) = W4 m ρ c (Proc.devRef .tc main_arg12)).trans (W4_arg12 m ρ c)
theorem W6_arg12 : W6 m ρ c (Proc.devRef .tc main_arg12) = m ((c : Thread nD τ).loc main_arg12) :=
  (W6_of_ne m ρ c main_arg12 (by decide)).trans (W5_arg12 m ρ c)
theorem W1_arg13 : W1 m ρ c (Proc.devRef .tc main_arg13) = m ((c : Thread nD τ).loc main_arg13) := by
  dsimp only [W1]; rw [Ops.hostOps0_eq]; dsimp only [Ops.ops0]; after_results <;> rfl
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) :=
  (by dsimp only [W3]; rw [Ops.hostOps1_eq]; dsimp only [Ops.ops1]; after_results <;> rfl : W3 m ρ c (Proc.devRef .tc main_arg13) = W2 m ρ c (Proc.devRef .tc main_arg13)).trans (W2_arg13 m ρ c)
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) :=
  (by dsimp only [W5]; rw [Ops.hostOps2_eq]; dsimp only [Ops.ops2]; after_results <;> rfl : W5 m ρ c (Proc.devRef .tc main_arg13) = W4 m ρ c (Proc.devRef .tc main_arg13)).trans (W4_arg13 m ρ c)
theorem W6_arg13 : W6 m ρ c (Proc.devRef .tc main_arg13) = m ((c : Thread nD τ).loc main_arg13) :=
  (W6_of_ne m ρ c main_arg13 (by decide)).trans (W5_arg13 m ρ c)
theorem W1_arg3 : W1 m ρ c (Proc.devRef .tc main_arg3) = m ((c : Thread nD τ).loc main_arg3) := by
  dsimp only [W1]; rw [Ops.hostOps0_eq]; dsimp only [Ops.ops0]; after_results <;> rfl
theorem W2_arg3 : W2 m ρ c (Proc.devRef .tc main_arg3) = m ((c : Thread nD τ).loc main_arg3) :=
  (W2_of_ne m ρ c main_arg3 (by decide)).trans (W1_arg3 m ρ c)
theorem W3_arg3 : W3 m ρ c (Proc.devRef .tc main_arg3) = m ((c : Thread nD τ).loc main_arg3) :=
  (by dsimp only [W3]; rw [Ops.hostOps1_eq]; dsimp only [Ops.ops1]; after_results <;> rfl : W3 m ρ c (Proc.devRef .tc main_arg3) = W2 m ρ c (Proc.devRef .tc main_arg3)).trans (W2_arg3 m ρ c)
theorem W4_arg3 : W4 m ρ c (Proc.devRef .tc main_arg3) = m ((c : Thread nD τ).loc main_arg3) :=
  (W4_of_ne m ρ c main_arg3 (by decide)).trans (W3_arg3 m ρ c)
theorem W5_arg3 : W5 m ρ c (Proc.devRef .tc main_arg3) = m ((c : Thread nD τ).loc main_arg3) :=
  (by dsimp only [W5]; rw [Ops.hostOps2_eq]; dsimp only [Ops.ops2]; after_results <;> rfl : W5 m ρ c (Proc.devRef .tc main_arg3) = W4 m ρ c (Proc.devRef .tc main_arg3)).trans (W4_arg3 m ρ c)
theorem W6_arg3 : W6 m ρ c (Proc.devRef .tc main_arg3) = m ((c : Thread nD τ).loc main_arg3) :=
  (W6_of_ne m ρ c main_arg3 (by decide)).trans (W5_arg3 m ρ c)
theorem W7_arg3 : W7 m ρ c (Proc.devRef .tc main_arg3) = m ((c : Thread nD τ).loc main_arg3) :=
  (by dsimp only [W7]; rw [Ops.hostOps3_eq]; dsimp only [Ops.ops3]; after_results <;> rfl : W7 m ρ c (Proc.devRef .tc main_arg3) = W6 m ρ c (Proc.devRef .tc main_arg3)).trans (W6_arg3 m ρ c)
theorem W8_arg3 : W8 m ρ c (Proc.devRef .tc main_arg3) = m ((c : Thread nD τ).loc main_arg3) :=
  (W8_of_ne m ρ c main_arg3 (by decide)).trans (W7_arg3 m ρ c)

/-! ## The edge lists and the degree column through the segments that only read them -/

theorem W2_v1 : W2 m ρ c (Proc.devRef .tc main_call0_v1) = rowV (m ((c : Thread nD τ).loc main_arg1)) :=
  (W2_of_ne m ρ c main_call0_v1 (by decide)).trans (W1_v1 m ρ c)
theorem W3_v1 : W3 m ρ c (Proc.devRef .tc main_call0_v1) = rowV (m ((c : Thread nD τ).loc main_arg1)) :=
  (by dsimp only [W3]; rw [Ops.hostOps1_eq]; dsimp only [Ops.ops1]; after_results <;> rfl : W3 m ρ c (Proc.devRef .tc main_call0_v1) = W2 m ρ c (Proc.devRef .tc main_call0_v1)).trans (W2_v1 m ρ c)
theorem W4_v1 : W4 m ρ c (Proc.devRef .tc main_call0_v1) = rowV (m ((c : Thread nD τ).loc main_arg1)) :=
  (W4_of_ne m ρ c main_call0_v1 (by decide)).trans (W3_v1 m ρ c)
theorem W2_v3 : W2 m ρ c (Proc.devRef .tc main_call0_v3) = colV (m ((c : Thread nD τ).loc main_arg1)) :=
  (W2_of_ne m ρ c main_call0_v3 (by decide)).trans (W1_v3 m ρ c)
theorem W3_v3 : W3 m ρ c (Proc.devRef .tc main_call0_v3) = colV (m ((c : Thread nD τ).loc main_arg1)) :=
  (by dsimp only [W3]; rw [Ops.hostOps1_eq]; dsimp only [Ops.ops1]; after_results <;> rfl : W3 m ρ c (Proc.devRef .tc main_call0_v3) = W2 m ρ c (Proc.devRef .tc main_call0_v3)).trans (W2_v3 m ρ c)
theorem W4_v3 : W4 m ρ c (Proc.devRef .tc main_call0_v3) = colV (m ((c : Thread nD τ).loc main_arg1)) :=
  (W4_of_ne m ρ c main_call0_v3 (by decide)).trans (W3_v3 m ρ c)
theorem W2_v11 : W2 m ρ c (Proc.devRef .tc main_call0_v11) = isdC (colV (m ((c : Thread nD τ).loc main_arg1))) :=
  ((W2_arr m ρ c 4).trans (((dat0 (V1 m ρ) c).arrAt_in 4 rfl _).trans (A_eq0 (V1 m ρ) c 4))).trans (W1_v11 m ρ c)
theorem W3_v11 : W3 m ρ c (Proc.devRef .tc main_call0_v11) = isdC (colV (m ((c : Thread nD τ).loc main_arg1))) :=
  (by dsimp only [W3]; rw [Ops.hostOps1_eq]; dsimp only [Ops.ops1]; after_results <;> rfl : W3 m ρ c (Proc.devRef .tc main_call0_v11) = W2 m ρ c (Proc.devRef .tc main_call0_v11)).trans (W2_v11 m ρ c)
theorem W4_v11 : W4 m ρ c (Proc.devRef .tc main_call0_v11) = isdC (colV (m ((c : Thread nD τ).loc main_arg1))) :=
  ((W4_arr m ρ c 2).trans (((dat1 (V3 m ρ) c).arrAt_in 2 rfl _).trans (A_eq1 (V3 m ρ) c 2))).trans (W3_v11 m ρ c)
theorem W5_v11 : W5 m ρ c (Proc.devRef .tc main_call0_v11) = isdC (colV (m ((c : Thread nD τ).loc main_arg1))) :=
  (by dsimp only [W5]; rw [Ops.hostOps2_eq]; dsimp only [Ops.ops2]; after_results <;> rfl : W5 m ρ c (Proc.devRef .tc main_call0_v11) = W4 m ρ c (Proc.devRef .tc main_call0_v11)).trans (W4_v11 m ρ c)

/-! ## pallas_call 0 and the second stretch -/

theorem W2_v13 : W2 m ρ c (Proc.devRef .tc main_call0_v13) = hw1s (m ((c : Thread nD τ).loc main_arg0)) (m ((c : Thread nD τ).loc main_arg1)) (m ((c : Thread nD τ).loc main_arg4)) (m ((c : Thread nD τ).loc main_arg5)) (m ((c : Thread nD τ).loc main_arg6)) := by
  refine (W2_arr m ρ c 5).trans ((Reg0.final (V1 m ρ) c).trans ?_)
  show Reg0.G (W1 m ρ c (Proc.devRef .tc main_arg0)) (W1 m ρ c (Proc.devRef .tc main_arg4)) (W1 m ρ c (Proc.devRef .tc main_call0_v12)) (W1 m ρ c (Proc.devRef .tc main_arg6)) (W1 m ρ c (Proc.devRef .tc main_call0_v11)) = _
  rw [W1_arg0, W1_arg4, W1_v12, W1_arg6, W1_v11]; rfl
theorem W3_v13 : W3 m ρ c (Proc.devRef .tc main_call0_v13) = hw1s (m ((c : Thread nD τ).loc main_arg0)) (m ((c : Thread nD τ).loc main_arg1)) (m ((c : Thread nD τ).loc main_arg4)) (m ((c : Thread nD τ).loc main_arg5)) (m ((c : Thread nD τ).loc main_arg6)) :=
  (by dsimp only [W3]; rw [Ops.hostOps1_eq]; dsimp only [Ops.ops1]; after_results <;> rfl : W3 m ρ c (Proc.devRef .tc main_call0_v13) = W2 m ρ c (Proc.devRef .tc main_call0_v13)).trans (W2_v13 m ρ c)
set_option maxHeartbeats 4000000 in
theorem W3_v24 : W3 m ρ c (Proc.devRef .tc main_call0_v24) = scan (hw1s (m ((c : Thread nD τ).loc main_arg0)) (m ((c : Thread nD τ).loc main_arg1)) (m ((c : Thread nD τ).loc main_arg4)) (m ((c : Thread nD τ).loc main_arg5)) (m ((c : Thread nD τ).loc main_arg6))) (rowV (m ((c : Thread nD τ).loc main_arg1))) (colV (m ((c : Thread nD τ).loc main_arg1))) := by
  refine (by unfold scan colB rowN; dsimp only [W3]; rw [Ops.hostOps1_eq]; dsimp only [Ops.ops1]; after_results <;> rfl : W3 m ρ c (Proc.devRef .tc main_call0_v24)
    = scan (W2 m ρ c (Proc.devRef .tc main_call0_v13)) (W2 m ρ c (Proc.devRef .tc main_call0_v1)) (W2 m ρ c (Proc.devRef .tc main_call0_v3))).trans ?_
  rw [W2_v13, W2_v1, W2_v3]
theorem W3_v25 : W3 m ρ c (Proc.devRef .tc main_call0_v25) = brow (m ((c : Thread nD τ).loc main_arg7)) := by
  refine (by unfold brow; dsimp only [W3]; rw [Ops.hostOps1_eq]; dsimp only [Ops.ops1]; after_results <;> rfl : W3 m ρ c (Proc.devRef .tc main_call0_v25) = brow (W2 m ρ c (Proc.devRef .tc main_arg7))).trans ?_
  rw [W2_arg7]

/-! ## pallas_call 1 and the third stretch -/

theorem W4_v26 : W4 m ρ c (Proc.devRef .tc main_call0_v26) = hw2s (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Reg1.final (V3 m ρ) c).trans ?_)
  show Reg1.G (W3 m ρ c (Proc.devRef .tc main_call0_v24)) (W3 m ρ c (Proc.devRef .tc main_call0_v13)) (W3 m ρ c (Proc.devRef .tc main_call0_v11)) (W3 m ρ c (Proc.devRef .tc main_call0_v25)) (W3 m ρ c (Proc.devRef .tc main_arg8)) = _
  rw [W3_v24, W3_v13, W3_v11, W3_v25, W3_arg8]; rfl
theorem W5_v26 : W5 m ρ c (Proc.devRef .tc main_call0_v26) = hw2s (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) :=
  (by dsimp only [W5]; rw [Ops.hostOps2_eq]; dsimp only [Ops.ops2]; after_results <;> rfl : W5 m ρ c (Proc.devRef .tc main_call0_v26) = W4 m ρ c (Proc.devRef .tc main_call0_v26)).trans (W4_v26 m ρ c)
set_option maxHeartbeats 4000000 in
theorem W5_v37 : W5 m ρ c (Proc.devRef .tc main_call0_v37) = scan (hw2s (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (rowV (m ((c : Thread nD τ).loc main_arg1))) (colV (m ((c : Thread nD τ).loc main_arg1))) := by
  refine (by unfold scan colB rowN; dsimp only [W5]; rw [Ops.hostOps2_eq]; dsimp only [Ops.ops2]; after_results <;> rfl : W5 m ρ c (Proc.devRef .tc main_call0_v37)
    = scan (W4 m ρ c (Proc.devRef .tc main_call0_v26)) (W4 m ρ c (Proc.devRef .tc main_call0_v1)) (W4 m ρ c (Proc.devRef .tc main_call0_v3))).trans ?_
  rw [W4_v26, W4_v1, W4_v3]
theorem W5_v38 : W5 m ρ c (Proc.devRef .tc main_call0_v38) = brow (m ((c : Thread nD τ).loc main_arg9)) := by
  refine (by unfold brow; dsimp only [W5]; rw [Ops.hostOps2_eq]; dsimp only [Ops.ops2]; after_results <;> rfl : W5 m ρ c (Proc.devRef .tc main_call0_v38) = brow (W4 m ρ c (Proc.devRef .tc main_arg9))).trans ?_
  rw [W4_arg9]

/-! ## pallas_call 2 and the fourth stretch -/

theorem W6_v39 : W6 m ρ c (Proc.devRef .tc main_call0_v39) = h2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 4).trans ((Reg2.final (V5 m ρ) c).trans ?_)
  show Reg2.G (W5 m ρ c (Proc.devRef .tc main_call0_v37)) (W5 m ρ c (Proc.devRef .tc main_call0_v26)) (W5 m ρ c (Proc.devRef .tc main_call0_v11)) (W5 m ρ c (Proc.devRef .tc main_call0_v38)) = _
  rw [W5_v37, W5_v26, W5_v11, W5_v38]; rfl
set_option maxHeartbeats 4000000 in
theorem W7_v46 : W7 m ρ c (Proc.devRef .tc main_call0_v46) = zsel (h2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) := by
  refine (by unfold zsel sgN; dsimp only [W7]; rw [Ops.hostOps3_eq]; dsimp only [Ops.ops3]; after_results <;> rfl : W7 m ρ c (Proc.devRef .tc main_call0_v46)
    = zsel (W6 m ρ c (Proc.devRef .tc main_call0_v39)) (W6 m ρ c (Proc.devRef .tc main_arg2))).trans ?_
  rw [W6_v39, W6_arg2]
theorem W7_v47 : W7 m ρ c (Proc.devRef .tc main_call0_v47) = wcat (m ((c : Thread nD τ).loc main_arg10)) (m ((c : Thread nD τ).loc main_arg12)) := by
  refine (by unfold wcat; dsimp only [W7]; rw [Ops.hostOps3_eq]; dsimp only [Ops.ops3]; after_results <;> rfl : W7 m ρ c (Proc.devRef .tc main_call0_v47)
    = wcat (W6 m ρ c (Proc.devRef .tc main_arg10)) (W6 m ρ c (Proc.devRef .tc main_arg12))).trans ?_
  rw [W6_arg10, W6_arg12]
theorem W7_v49 : W7 m ρ c (Proc.devRef .tc main_call0_v49) = bcat (m ((c : Thread nD τ).loc main_arg11)) (m ((c : Thread nD τ).loc main_arg13)) := by
  refine (by unfold bcat; dsimp only [W7]; rw [Ops.hostOps3_eq]; dsimp only [Ops.ops3]; after_results <;> rfl : W7 m ρ c (Proc.devRef .tc main_call0_v49)
    = bcat (W6 m ρ c (Proc.devRef .tc main_arg11)) (W6 m ρ c (Proc.devRef .tc main_arg13))).trans ?_
  rw [W6_arg11, W6_arg13]

/-! ## pallas_call 3 and the last stretch -/

theorem W8_v50 : W8 m ρ c (Proc.devRef .tc main_call0_v50)
    = mlog (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 3).trans ((Reg3.final (V7 m ρ) c).trans ?_)
  show Reg3.G (W7 m ρ c (Proc.devRef .tc main_call0_v46)) (W7 m ρ c (Proc.devRef .tc main_call0_v47)) (W7 m ρ c (Proc.devRef .tc main_call0_v49)) = _
  rw [W7_v46, W7_v47, W7_v49]; rfl

set_option maxHeartbeats 4000000 in
/-- The program's two results, as the sampling arithmetic of the head's two columns and the noise. -/
theorem W9_v0_0 : W9 m ρ c (Proc.devRef .tc main_v0_0) = actOf (muOf (W8 m ρ c (Proc.devRef .tc main_call0_v50))) (lsOf (W8 m ρ c (Proc.devRef .tc main_call0_v50))) (W8 m ρ c (Proc.devRef .tc main_arg3)) := by
  unfold actOf lsClip muOf lsOf
  dsimp only [W9]; rw [Ops.hostOps4_eq]; dsimp only [Ops.ops4]; after_results <;> rfl
set_option maxHeartbeats 4000000 in
theorem W9_v0_1 : W9 m ρ c (Proc.devRef .tc main_v0_1) = logpOf (muOf (W8 m ρ c (Proc.devRef .tc main_call0_v50))) (lsOf (W8 m ρ c (Proc.devRef .tc main_call0_v50))) (W8 m ρ c (Proc.devRef .tc main_arg3)) := by
  unfold logpOf actOf lsClip muOf lsOf
  dsimp only [W9]; rw [Ops.hostOps4_eq]; dsimp only [Ops.ops4]; after_results <;> rfl

end Cert.KernelIdeal.Chain

end
-- ==== Proof.KOut.lean ====
/-
  The idealized kernel program's two results as functions of its arguments: the last stretch's sampling arithmetic on
  the two columns of the head projection, which is the fourth pallas_call's array of the arguments.
-/
import proofs.«114178_j8143257993844_2_alg».proof.Proof.KChain

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem out0 : W9 m ρ c (Proc.devRef .tc main_v0_0)
    = actOf (muOf (mlog (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (lsOf (mlog (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (m ((c : Thread nD τ).loc main_arg3)) := by
  rw [W9_v0_0, W8_v50, W8_arg3]

theorem out1 : W9 m ρ c (Proc.devRef .tc main_v0_1)
    = logpOf (muOf (mlog (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (lsOf (mlog (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (m ((c : Thread nD τ).loc main_arg3)) := by
  rw [W9_v0_1, W8_v50, W8_arg3]

end Cert.KernelIdeal.Chain

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.LibScatterSums.lean ====
/-
  The host's accumulating scatter of M scalars into a vector of length N, read at one entry.

  Over the extended reals the accumulating scatter holds, at every operand index, the operand's element plus the sum
  of the updates that land there. With one start index per update and the vector's one axis inserted, update n lands
  at k exactly when its start index, read signed, is k; so entry k is the operand's entry plus the sum over all n of
  "update n if index n is k, else nothing" — a start index outside [0, N) contributes to no entry.
-/
import Idealize.ShloMosaic.PureOps.Ideal
import Idealize.ShloMosaic.Lib.ValueIdx
import proofs.«114178_j8143257993844_2_alg».proof.Proof.LibScatterShapes

noncomputable section

open scoped BigOperators

namespace Cert.LibScatter

open Idealize.ShloMosaic Idealize.ShloMosaic.ValueIdx

variable {N M w : Nat}

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Entry k of the accumulating scatter of M scalars into a vector: the operand's entry plus the updates whose
    start index is k. -/
theorem hostScatterAdd_vec_apply (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (k : Fin N) :
    Ideal.hostScatterAdd d x idx upd (ix1 k)
      = x (ix1 k) + ∑ n : Fin M, if (idx (ix2 n 0)).toInt = (k.val : Int) then upd (ix1 n) else 0 := by
  unfold Ideal.hostScatterAdd
  refine congrArg (x (ix1 k) + ·) ?_
  rw [Finset.sum_filter, sum_idx1]
  refine Finset.sum_congr rfl fun n _ => ?_
  exact if_congr (resultIdx?_vec d h1 h2 h3 h4 (ix1 n) idx (ix1 k)) rfl rfl

end Cert.LibScatter

end
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibColumns.lean ====
/-
  A single column of a matrix, read at an index: an [a, 1] column cast to a length-a vector reads the column's entry of the
  row, and column c of an [a, b] matrix, cut out as an [a, 1] column and cast to a vector, reads the matrix at (row, c).
-/
import Idealize.ShloMosaic.Lib.Pipeline.Value
import Idealize.ShloMosaic.Lib.ValueIdx
import Idealize.ShloMosaic.Lib.ValueLayout

namespace Idealize.ShloMosaic.Columns

open Idealize.ShloMosaic Idealize.ShloMosaic.ValueIdx

variable {α : Type}

/-- An [a, 1] column cast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column c of an [a, b] matrix, cut out as [a, 1] and cast to [a], reads, at i, the matrix at (i, c). -/
theorem column_apply {a b : ℕ} (c : Fin b) (X : (⟨2, ![a, b]⟩ : Shape).Idx → α)
    (h : (⟨2, ![a, b]⟩ : Shape).Slices ![0, c.val] ⟨2, ![a, 1]⟩) (h' : (⟨2, ![a, 1]⟩ : Shape).ShapeCasts ⟨1, ![a]⟩) (i : Fin a) :
    shapeCast ⟨1, ![a]⟩ (extractStridedSlice ⟨2, ![a, 1]⟩ ![0, c.val] X h) h' (ix1 i) = X (ix2 i c) :=
  (shapeCast_a1_a_apply _ h' i).trans (slice2_axis1_apply c.val X h i (0 : Fin 1) c (by simp))

end Idealize.ShloMosaic.Columns
-- ==== Proof.LibGraphReads.lean ====
/-
  The graph stages' operation chains read at an entry, over arrays of any extents, every shape fact and every
  dimension record a hypothesis (so that each program's own records and facts apply).

  An indexed read `x[idx]` gathers row `grow idx e`: the e-th start index read as a signed integer and clamped into
  the operand's rows. An accumulating scatter adds update `e` into the row whose number is the e-th index word read
  as a signed integer; a word outside the rows lands nowhere. With these two conventions:

  * `ew_read`: the inner product of two gathered rows (gather, gather, multiply, host sum over the lanes from zero).
  * `deg_read`: weights scattered into a zero vector by destination, plus a splat constant.
  * `dprod_read`, `norm_read`: the product of two gathered degrees; a weight times its reciprocal square root.
  * `agg_read`: rows scaled by a per-edge factor and scattered into a zero matrix by destination.
  * `sagg_read`: scalars scaled by a per-edge factor and scattered into a zero vector by destination.
  * `self_read`: a matrix divided by a vector spread over its lanes.
  * `dense_read`, `densecol_read`: `A @ W + b` with `b` a vector spread over the rows, and its one-column form
    `A @ w + b` reshaped to a vector.
-/
import proofs.«114178_j8143257993844_2_alg».proof.Proof.LibGather
import proofs.«114178_j8143257993844_2_alg».proof.Proof.LibScatterRows
import proofs.«114178_j8143257993844_2_alg».proof.Proof.LibScatterSums
import proofs.«114178_j8143257993844_2_alg».proof.Proof.LibScatterIdeal
import proofs.«114178_j8143257993844_2_alg».proof.Proof.LibHostRowSum
import proofs.«114178_j8143257993844_2_alg».proof.Proof.LibPlainDot
import proofs.«114178_j8143257993844_2_alg».proof.Proof.LibRowInDim
import proofs.«114178_j8143257993844_2_alg».proof.Proof.LibColumnInDim
import proofs.«114178_j8143257993844_2_alg».proof.Proof.LibRowOfVector
import proofs.«114178_j8143257993844_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphReads

open Idealize.ShloMosaic Idealize.ShloMosaic.ValueIdx

/-- the row an indexed read takes for edge `e`: the start index read signed, clamped into [0, K − 1]. -/
def grow (K : Nat) (hK : 0 < K) {M : Nat} (idx : IVec ⟨2, ![M, 1]⟩ 32) (e : Fin M) : Fin K :=
  ⟨min (idx (ix2 e 0)).toInt.toNat (K - 1), by omega⟩

/-- A scalar splat into any shape reads the scalar at every entry. -/
theorem splat_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

variable {N M C H : Nat}

section Gathers

variable (dR : GatherDims ⟨2, ![N, C]⟩ ⟨2, ![M, 1]⟩ ⟨2, ![M, C]⟩)
    (r1 : dR.offsetDims = [1]) (r2 : dR.collapsedSliceDims = [0]) (r3 : dR.operandBatchingDims = [])
    (r4 : dR.startIndicesBatchingDims = []) (r5 : dR.startIndexMap = [0]) (r6 : dR.indexVectorDim = 1)
    (r7 : dR.sliceSizes = ![1, C])

include r1 r2 r3 r4 r5 r6 r7 in
/-- A gathered matrix at (e, l): the operand at the edge's row, lane l. -/
theorem rows_read (hN : 0 < N) {α : Type} (x : (⟨2, ![N, C]⟩ : Shape).Idx → α) (idx : IVec ⟨2, ![M, 1]⟩ 32) (e : Fin M) (l : Fin C) :
    Host.gather dR x idx (ix2 e l) = x (ix2 (grow N hN idx e) l) :=
  Cert.LibGather.gather_rows_apply dR r1 r2 r3 r4 r5 r6 r7 hN x idx e l

include r1 r2 r3 r4 r5 r6 r7 in
/-- The edge weight: the inner product of the two gathered rows. -/
theorem ew_read (hN : 0 < N) (fn : FVec Ideal ⟨2, ![N, C]⟩ .f32) (is id : IVec ⟨2, ![M, 1]⟩ 32)
    (hr : (⟨2, ![M, C]⟩ : Shape).ReducesTo [1] (⟨1, ![M]⟩ : Shape)) (hu : 0 < (⟨0, ![]⟩ : Shape).numel) (e : Fin M) :
    Host.reduceAdd (F := Ideal) (mulf (Host.gather dR fn is) (Host.gather dR fn id))
        (constant (F := Ideal) ⟨0, ![]⟩ .f32 0x00000000#32) hr hu (ix1 e)
      = ∑ l : Fin C, fn (ix2 (grow N hN is e) l) * fn (ix2 (grow N hN id e) l) := by
  refine (Cert.HostRowSum.hostRowSum_zero_apply _ _ e).trans ?_
  refine Finset.sum_congr rfl fun l _ => ?_
  refine (mulf_apply _ _ _).trans ?_
  rw [rows_read dR r1 r2 r3 r4 r5 r6 r7 hN fn is e l, rows_read dR r1 r2 r3 r4 r5 r6 r7 hN fn id e l]

end Gathers

section VecGathers

variable (dV : GatherDims ⟨1, ![N]⟩ ⟨2, ![M, 1]⟩ ⟨1, ![M]⟩)
    (v1 : dV.offsetDims = []) (v2 : dV.collapsedSliceDims = [0]) (v3 : dV.operandBatchingDims = [])
    (v4 : dV.startIndicesBatchingDims = []) (v5 : dV.startIndexMap = [0]) (v6 : dV.indexVectorDim = 1)
    (v7 : dV.sliceSizes = ![1])

include v1 v2 v3 v4 v5 v6 v7 in
/-- A gathered vector at e: the operand at the edge's row. -/
theorem vec_read (hN : 0 < N) {α : Type} (x : (⟨1, ![N]⟩ : Shape).Idx → α) (idx : IVec ⟨2, ![M, 1]⟩ 32) (e : Fin M) :
    Host.gather dV x idx (ix1 e) = x (ix1 (grow N hN idx e)) :=
  Cert.LibGather.gather_vec_apply dV v1 v2 v3 v4 v5 v6 v7 hN x idx e

include v1 v2 v3 v4 v5 v6 v7 in
/-- The product of an edge's two gathered degrees. -/
theorem dprod_read (hN : 0 < N) (deg : FVec Ideal ⟨1, ![N]⟩ .f32) (is id : IVec ⟨2, ![M, 1]⟩ 32) (e : Fin M) :
    mulf (Host.gather dV deg is) (Host.gather dV deg id) (ix1 e)
      = deg (ix1 (grow N hN is e)) * deg (ix1 (grow N hN id e)) := by
  refine (mulf_apply _ _ _).trans ?_
  rw [vec_read dV v1 v2 v3 v4 v5 v6 v7 hN deg is e, vec_read dV v1 v2 v3 v4 v5 v6 v7 hN deg id e]

end VecGathers

/-- A weight times the host's reciprocal square root of a second vector, at e. -/
theorem norm_read (ew p : FVec Ideal ⟨1, ![M]⟩ .f32) (e : Fin M) :
    mulf ew (Host.rsqrt p) (ix1 e) = ew (ix1 e) * Ideal.rsqrt (p (ix1 e)) := rfl

section VecScatter

variable (sV : ScatterDims ⟨1, ![N]⟩ ⟨2, ![M, 1]⟩ ⟨1, ![M]⟩)
    (s1 : sV.updateWindowDims = []) (s2 : sV.insertedWindowDims = [0]) (s3 : sV.scatterDimsToOperandDims = [0])
    (s4 : sV.indexVectorDim = 1)

include s1 s2 s3 s4 in
/-- Scalars scattered into a zero vector by destination: at k, the sum of the updates whose destination word is k. -/
theorem scatter0_read (upd : FVec Ideal ⟨1, ![M]⟩ .f32) (dst : IVec ⟨1, ![M]⟩ 32)
    (hz : (⟨0, ![]⟩ : Shape).BroadcastsInDim ⟨1, ![N]⟩ (![] : Fin 0 → Fin 1))
    (hc : (⟨1, ![M]⟩ : Shape).BroadcastsInDim ⟨2, ![M, 1]⟩ (![0] : Fin 1 → Fin 2)) (k : Fin N) :
    Host.scatterAdd sV (broadcastInDim ⟨1, ![N]⟩ ![] hz (constant (F := Ideal) ⟨0, ![]⟩ .f32 0x00000000#32))
        (broadcastInDim ⟨2, ![M, 1]⟩ ![0] hc dst) upd (ix1 k)
      = ∑ e : Fin M, if (dst (ix1 e)).toInt = (k.val : Int) then upd (ix1 e) else 0 := by
  rw [Cert.LibScatter.scatterAdd_ideal, Cert.LibScatter.hostScatterAdd_vec_apply sV s1 s2 s3 s4]
  rw [splat_apply, constant_apply, Ideal.ofBits_zero_f32, zero_add]
  refine Finset.sum_congr rfl fun e _ => ?_
  rw [Cert.ColumnInDim.broadcastInDim_column dst hc e 0]

include s1 s2 s3 s4 in
/-- The degree: the weights landing on k, plus the splat constant. -/
theorem deg_read (ew : FVec Ideal ⟨1, ![M]⟩ .f32) (dst : IVec ⟨1, ![M]⟩ 32) (one : BitVec 32)
    (hz : (⟨0, ![]⟩ : Shape).BroadcastsInDim ⟨1, ![N]⟩ (![] : Fin 0 → Fin 1))
    (hc : (⟨1, ![M]⟩ : Shape).BroadcastsInDim ⟨2, ![M, 1]⟩ (![0] : Fin 1 → Fin 2)) (k : Fin N) :
    addf (Host.scatterAdd sV (broadcastInDim ⟨1, ![N]⟩ ![] hz (constant (F := Ideal) ⟨0, ![]⟩ .f32 0x00000000#32))
        (broadcastInDim ⟨2, ![M, 1]⟩ ![0] hc dst) ew)
      (broadcastInDim ⟨1, ![N]⟩ ![] hz (constant (F := Ideal) ⟨0, ![]⟩ .f32 one)) (ix1 k)
      = (∑ e : Fin M, if (dst (ix1 e)).toInt = (k.val : Int) then ew (ix1 e) else 0) + Ideal.ofBits .f32 one := by
  refine (addf_apply _ _ _).trans ?_
  rw [scatter0_read sV s1 s2 s3 s4 ew dst hz hc k, splat_apply, constant_apply]

end VecScatter

section RowScatter

variable (sR : ScatterDims ⟨2, ![N, H]⟩ ⟨2, ![M, 1]⟩ ⟨2, ![M, H]⟩)
    (t1 : sR.updateWindowDims = [1]) (t2 : sR.insertedWindowDims = [0]) (t3 : sR.scatterDimsToOperandDims = [0])
    (t4 : sR.indexVectorDim = 1)

include t1 t2 t3 t4 in
/-- Rows scattered into a zero matrix by destination: at (k, j), the sum of lane j of the rows whose destination word is k. -/
theorem scatterRows0_read (upd : FVec Ideal ⟨2, ![M, H]⟩ .f32) (dst : IVec ⟨1, ![M]⟩ 32)
    (hz : (⟨0, ![]⟩ : Shape).BroadcastsInDim ⟨2, ![N, H]⟩ (![] : Fin 0 → Fin 2))
    (hc : (⟨1, ![M]⟩ : Shape).BroadcastsInDim ⟨2, ![M, 1]⟩ (![0] : Fin 1 → Fin 2)) (k : Fin N) (j : Fin H) :
    Host.scatterAdd sR (broadcastInDim ⟨2, ![N, H]⟩ ![] hz (constant (F := Ideal) ⟨0, ![]⟩ .f32 0x00000000#32))
        (broadcastInDim ⟨2, ![M, 1]⟩ ![0] hc dst) upd (ix2 k j)
      = ∑ e : Fin M, if (dst (ix1 e)).toInt = (k.val : Int) then upd (ix2 e j) else 0 := by
  rw [Cert.LibScatter.scatterAdd_ideal, Cert.LibScatter.hostScatterAdd_rows_apply sR t1 t2 t3 t4]
  rw [splat_apply, constant_apply, Ideal.ofBits_zero_f32, zero_add]
  refine Finset.sum_congr rfl fun e _ => ?_
  rw [Cert.ColumnInDim.broadcastInDim_column dst hc e 0]

end RowScatter

/-- A per-edge factor spread over the lanes (vector → column → matrix) times a matrix, at (e, j). -/
theorem scaled_read (f : FVec Ideal ⟨1, ![M]⟩ .f32) (X : FVec Ideal ⟨2, ![M, H]⟩ .f32)
    (hc : (⟨1, ![M]⟩ : Shape).BroadcastsInDim ⟨2, ![M, 1]⟩ (![0] : Fin 1 → Fin 2))
    (hl : (⟨2, ![M, 1]⟩ : Shape).BroadcastsInDim ⟨2, ![M, H]⟩ (![0, 1] : Fin 2 → Fin 2)) (e : Fin M) (j : Fin H) :
    mulf (broadcastInDim ⟨2, ![M, H]⟩ ![0, 1] hl (broadcastInDim ⟨2, ![M, 1]⟩ ![0] hc f)) X (ix2 e j)
      = f (ix1 e) * X (ix2 e j) := by
  refine (mulf_apply _ _ _).trans ?_
  rw [Cert.ColumnInDim.broadcastInDim_lanes _ hl e j, Cert.ColumnInDim.broadcastInDim_column f hc e 0]

/-- A matrix divided by a vector spread over its lanes, at (k, j). -/
theorem self_read (X : FVec Ideal ⟨2, ![N, H]⟩ .f32) (d : FVec Ideal ⟨1, ![N]⟩ .f32)
    (hc : (⟨1, ![N]⟩ : Shape).BroadcastsInDim ⟨2, ![N, 1]⟩ (![0] : Fin 1 → Fin 2))
    (hl : (⟨2, ![N, 1]⟩ : Shape).BroadcastsInDim ⟨2, ![N, H]⟩ (![0, 1] : Fin 2 → Fin 2)) (k : Fin N) (j : Fin H) :
    Host.divf X (broadcastInDim ⟨2, ![N, H]⟩ ![0, 1] hl (broadcastInDim ⟨2, ![N, 1]⟩ ![0] hc d)) (ix2 k j)
      = Ideal.div (X (ix2 k j)) (d (ix1 k)) := by
  show Ideal.div (X (ix2 k j)) _ = _
  rw [Cert.ColumnInDim.broadcastInDim_lanes _ hl k j, Cert.ColumnInDim.broadcastInDim_column d hc k 0]

end Cert.GraphReads

end
-- ==== Proof.LibEdgeSums.lean ====
/-
  Finite sums of extended reals against one nonnegative finite factor, and the aggregation step of a normalised
  graph convolution.

  * `sum_mul_of_nonneg_of_ne_top`: (∑ i, f i) · x = ∑ i, f i · x for 0 ≤ x ≠ ⊤ and ANY extended reals f i (the
    extended reals do not distribute in general; they do against a nonnegative finite factor).
  * `aggregate_scale`: messages h(g n) · d(g n) summed over the edges n landing on a node k and then scaled by d(k)
    are the messages h(g n) · (d(g n) · d(g' n)) summed over the same edges, when g' n = k on every landing edge.
-/
import Mathlib.Data.EReal.Inv
import Mathlib.Algebra.BigOperators.Group.Finset.Basic

open scoped BigOperators

namespace Cert.EdgeSums

/-- A finite sum of extended reals times a nonnegative finite factor is the sum of the products. -/
theorem sum_mul_of_nonneg_of_ne_top {ι : Type*} (s : Finset ι) (f : ι → EReal) {x : EReal} (h0 : 0 ≤ x)
    (ht : x ≠ ⊤) : (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- Scaling the aggregate at node k by d k is scaling every landing message by d of its own target. -/
theorem aggregate_scale {ι N : Type*} [Fintype ι] (land : ι → Prop) [DecidablePred land]
    (h d : N → EReal) (g g' : ι → N) (k : N) (hk0 : 0 ≤ d k) (hkt : d k ≠ ⊤)
    (hg' : ∀ n, land n → g' n = k) :
    (∑ n, if land n then h (g n) * d (g n) else 0) * d k
      = ∑ n, if land n then h (g n) * (d (g n) * d (g' n)) else 0 := by
  rw [sum_mul_of_nonneg_of_ne_top _ _ hk0 hkt]
  refine Finset.sum_congr rfl fun n _ => ?_
  by_cases hl : land n
  · rw [if_pos hl, if_pos hl, hg' n hl, mul_assoc]
  · rw [if_neg hl, if_neg hl, zero_mul]

end Cert.EdgeSums
-- ==== Proof.LibGraphConv.lean ====
/-
  One layer of a normalised graph convolution over the extended reals, in two arrangements, and the positive factor
  that makes them agree.

  A node k gathers, over the edges e that land on it, the feature h (g e) of the edge's source. Let d be the nodes'
  inverse square-root degrees.
  * pre-scaled form: every node's feature is multiplied by its own d first, the sources' products are summed over
    the landing edges, the node's own product is added, and the total is scaled by d k;
  * per-edge form: every landing edge contributes h (g e) · (d (g e) · d (g' e)), g' e the edge's target, and the
    node's own feature enters with d k · d k.
  The two agree when 0 ≤ d k < ⊤ (the only thing distributed over the sum is d k) and g' e = k on the landing edges.
  No feature needs to be finite.

  The degree of k is one plus the number of landing edges, a real ≥ 1, so its inverse square root is a positive real.
-/
import proofs.«114178_j8143257993844_2_alg».proof.Proof.LibEdgeSums
import Idealize.ShloMosaic.PureOps.Ideal
import Idealize.ShloMosaic.Lib.IdealHost

noncomputable section

open scoped BigOperators

namespace Cert.Conv

open Idealize.ShloMosaic

variable {ε ν : Type*} [Fintype ε]

/-- The pre-scaled arrangement at node k (one lane): the bias added and the result clamped at zero from below. -/
def layerPre (land : ε → Prop) [DecidablePred land] (g : ε → ν) (d h : ν → EReal) (b : EReal) (k : ν) : EReal :=
  max (d k * ((∑ e, if land e then h (g e) * d (g e) else 0) + h k * d k) + b) 0

/-- The per-edge arrangement at node k (one lane). -/
def layerEdge (land : ε → Prop) [DecidablePred land] (g g' : ε → ν) (d h : ν → EReal) (b : EReal) (k : ν) : EReal :=
  max (((∑ e, if land e then h (g e) * (d (g e) * d (g' e)) else 0) + h k * (d k * d k)) + b) 0

/-- The two arrangements agree at k when d k is a nonnegative finite factor and every landing edge's target is k. -/
theorem layerPre_eq_layerEdge (land : ε → Prop) [DecidablePred land] (g g' : ε → ν) (d h : ν → EReal) (b : EReal)
    (k : ν) (h0 : 0 ≤ d k) (ht : d k ≠ ⊤) (hg' : ∀ e, land e → g' e = k) :
    layerPre land g d h b k = layerEdge land g g' d h b k := by
  unfold layerPre layerEdge
  rw [EReal.left_distrib_of_nonneg_of_ne_top h0 ht, mul_comm (d k) (∑ e, _),
    Cert.EdgeSums.aggregate_scale land h d g g' k h0 ht hg', mul_comm (d k) (h k * d k), mul_assoc]

/-- A count of ones is a nonnegative real. -/
theorem count_real (s : Finset ε) (p : ε → Prop) [DecidablePred p] :
    ∃ r : ℝ, 0 ≤ r ∧ (∑ e ∈ s, if p e then (1 : EReal) else 0) = (r : EReal) := by
  classical
  induction s using Finset.induction_on with
  | empty => exact ⟨0, le_refl _, by simp⟩
  | insert a s ha ih =>
    obtain ⟨r, hr, e⟩ := ih
    rw [Finset.sum_insert ha, e]
    by_cases hp : p a
    · refine ⟨1 + r, by linarith, ?_⟩
      rw [if_pos hp, EReal.coe_add]; rfl
    · exact ⟨r, hr, by rw [if_neg hp, zero_add]⟩

/-- The inverse square root of a degree (a count of ones, plus one) is a nonnegative finite factor. -/
theorem rsqrt_degree (p : ε → Prop) [DecidablePred p] :
    0 ≤ Ideal.rsqrt ((∑ e, if p e then (1 : EReal) else 0) + 1) ∧
      Ideal.rsqrt ((∑ e, if p e then (1 : EReal) else 0) + 1) ≠ ⊤ := by
  obtain ⟨r, hr, e⟩ := count_real (Finset.univ : Finset ε) p
  have h1 : ((r : EReal) + 1) = ((r + 1 : ℝ) : EReal) := by rw [EReal.coe_add]; rfl
  rw [e, h1, Ideal.rsqrt_coe, if_neg (by linarith), if_neg (by linarith)]
  exact ⟨by exact_mod_cast inv_nonneg.mpr (Real.sqrt_nonneg _), EReal.coe_ne_top _⟩

end Cert.Conv

end
-- ==== Proof.LibGraphLayer.lean ====
/-
  The edge stage of a graph convolution read at one entry, over arrays of any extents (every dimension record and
  shape fact a hypothesis), and the index arithmetic around it.

  * An indexed read `x[idx]` first counts a negative index from the end (`norm`): an index word that is a row number
    k (read signed) is left alone, and the read then takes row k.
  * `scanRows_read`: rows gathered at the edges' sources, widened, and added into the rows of the edges' targets:
    at (k, j), the sum over the edges landing on k of lane j of the source's row.
  * `aggRows_read`: the same with every gathered row first scaled by the product of the two gathered degrees.
-/
import proofs.«114178_j8143257993844_2_alg».proof.Proof.LibGraphReads
import Idealize.ShloMosaic.Lib.Affine
import Idealize.ShloMosaic.Lib.IdealHost
import proofs.«114178_j8143257993844_2_alg».proof.Proof.LibGraphConv
import proofs.«114178_j8143257993844_2_alg».proof.Proof.LibRowInDim
import proofs.«114178_j8143257993844_2_alg».proof.Proof.LibRowOfVector

noncomputable section

open scoped BigOperators

namespace Cert.Layer

open Idealize.ShloMosaic Idealize.ShloMosaic.ValueIdx Cert.GraphReads

variable {N M H : Nat}

/-- A negative index word counts from the end: K is added to it. -/
def norm (K w : BitVec 32) : BitVec 32 := Scalar.select (IntOp.cmpi .slt w 0#32) (IntOp.addi w K) w

/-- A word that reads as a nonnegative number is left alone. -/
theorem norm_of_nonneg (K w : BitVec 32) (h : 0 ≤ w.toInt) : norm K w = w := by
  unfold norm Scalar.select
  rw [if_neg]
  intro h1
  have := (IntOp.cmpi_slt (x := w) (y := 0#32)).mp h1
  simp at this
  omega

/-- The normalised index column read at an edge. -/
theorem normcol_read (rv : IVec ⟨1, ![M]⟩ 32) (K : BitVec 32)
    (hz : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (e : Fin M) :
    broadcastInDim ⟨2, ![M, 1]⟩ ![0] hc
        (select (cmpi .slt rv (broadcastInDim ⟨1, ![M]⟩ ![] hz (constantI ⟨0, ![]⟩ 32 0#32)))
          (addi rv (broadcastInDim ⟨1, ![M]⟩ ![] hz (constantI ⟨0, ![]⟩ 32 K))) rv) (ix2 e 0)
      = norm K (rv (ix1 e)) := by
  rw [Cert.ColumnInDim.broadcastInDim_column _ hc e 0]
  show Scalar.select (IntOp.cmpi .slt (rv (ix1 e)) (broadcastInDim ⟨1, ![M]⟩ ![] hz (constantI ⟨0, ![]⟩ 32 0#32) (ix1 e)))
      (IntOp.addi (rv (ix1 e)) (broadcastInDim ⟨1, ![M]⟩ ![] hz (constantI ⟨0, ![]⟩ 32 K) (ix1 e))) (rv (ix1 e)) = _
  rw [splat_apply, splat_apply]
  rfl

/-- An index column whose entry for edge e is the normalised word w, w a row number k: the read takes row k. -/
theorem grow_of_word (hN : 0 < N) (idx : IVec ⟨2, ![M, 1]⟩ 32) (e : Fin M) (K w : BitVec 32)
    (hidx : idx (ix2 e 0) = norm K w) (k : Fin N) (hw : w.toInt = (k.val : Int)) : grow N hN idx e = k := by
  apply Fin.ext
  show min (idx (ix2 e 0)).toInt.toNat (N - 1) = k.val
  rw [hidx, norm_of_nonneg K w (by omega), hw]
  have := k.isLt
  simp only [Int.toNat_natCast]
  omega

/-- The inverse square-root degree of node k for the target words `dst`: one over the root of one plus the number of edges
    whose target word reads k. -/
def isdOf (dst : IVec ⟨1, ![M]⟩ 32) (k : Fin N) : EReal :=
  Ideal.rsqrt ((∑ e : Fin M, if (dst (ix1 e)).toInt = (k.val : Int) then (1 : EReal) else 0) + 1)

section Degrees

variable (sV : ScatterDims ⟨1, ![N]⟩ ⟨2, ![M, 1]⟩ ⟨1, ![M]⟩)
    (s1 : sV.updateWindowDims = []) (s2 : sV.insertedWindowDims = [0]) (s3 : sV.scatterDimsToOperandDims = [0])
    (s4 : sV.indexVectorDim = 1)

include s1 s2 s3 s4 in
/-- The inverse square-root degree at node k: ones scattered by target into zeros, plus one, under the host's rsqrt. -/
theorem isd_read (dst : IVec ⟨1, ![M]⟩ 32)
    (hz : (⟨0, ![]⟩ : Shape).BroadcastsInDim ⟨1, ![N]⟩ (![] : Fin 0 → Fin 1))
    (hzm : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (k : Fin N) :
    Host.rsqrt (addf
        (Host.scatterAdd sV (broadcastInDim ⟨1, ![N]⟩ ![] hz (constant (F := Ideal) ⟨0, ![]⟩ .f32 0x00000000#32))
          (broadcastInDim ⟨2, ![M, 1]⟩ ![0] hc dst)
          (broadcastInDim ⟨1, ![M]⟩ ![] hzm (constant (F := Ideal) ⟨0, ![]⟩ .f32 0x3F800000#32)))
        (broadcastInDim ⟨1, ![N]⟩ ![] hz (constant (F := Ideal) ⟨0, ![]⟩ .f32 0x3F800000#32))) (ix1 k)
      = isdOf dst k := by
  show Ideal.rsqrt (addf (F := Ideal) (φ := .f32) _ _ (ix1 k)) = _
  rw [deg_read sV s1 s2 s3 s4 _ dst 0x3F800000#32 hz hc k, Ideal.ofBits_one_f32]
  refine congrArg (fun v : EReal => Ideal.rsqrt (v + 1)) (Finset.sum_congr rfl fun e _ => ?_)
  rw [splat_apply, constant_apply, Ideal.ofBits_one_f32]

end Degrees

section Rows

variable (sR : ScatterDims ⟨2, ![N, H]⟩ ⟨2, ![M, 1]⟩ ⟨2, ![M, H]⟩)
    (t1 : sR.updateWindowDims = [1]) (t2 : sR.insertedWindowDims = [0]) (t3 : sR.scatterDimsToOperandDims = [0])
    (t4 : sR.indexVectorDim = 1)
    (dR : GatherDims ⟨2, ![N, H]⟩ ⟨2, ![M, 1]⟩ ⟨2, ![M, H]⟩)
    (r1 : dR.offsetDims = [1]) (r2 : dR.collapsedSliceDims = [0]) (r3 : dR.operandBatchingDims = [])
    (r4 : dR.startIndicesBatchingDims = []) (r5 : dR.startIndexMap = [0]) (r6 : dR.indexVectorDim = 1)
    (r7 : dR.sliceSizes = ![1, H])

include t1 t2 t3 t4 r1 r2 r3 r4 r5 r6 r7 in
/-- Gathered rows, widened, scattered by target: the landing edges' source rows, summed. -/
theorem scanRows_read (hN : 0 < N) {φ : FTy} (hφ : φ.bits < FTy.f32.bits) (hws : FVec Ideal ⟨2, ![N, H]⟩ φ)
    (ridx : IVec ⟨2, ![M, 1]⟩ 32) (dst : IVec ⟨1, ![M]⟩ 32)
    (hz : (⟨0, ![]⟩ : Shape).BroadcastsInDim ⟨2, ![N, H]⟩ (![] : Fin 0 → Fin 2))
    (hc : (⟨1, ![M]⟩ : Shape).BroadcastsInDim ⟨2, ![M, 1]⟩ (![0] : Fin 1 → Fin 2)) (k : Fin N) (j : Fin H) :
    Host.scatterAdd sR (broadcastInDim ⟨2, ![N, H]⟩ ![] hz (constant (F := Ideal) ⟨0, ![]⟩ .f32 0x00000000#32))
        (broadcastInDim ⟨2, ![M, 1]⟩ ![0] hc dst) (extf .f32 (Host.gather dR hws ridx) hφ) (ix2 k j)
      = ∑ e : Fin M, if (dst (ix1 e)).toInt = (k.val : Int) then (hws (ix2 (grow N hN ridx e) j) : EReal) else 0 := by
  rw [scatterRows0_read sR t1 t2 t3 t4 _ dst hz hc k j]
  refine Finset.sum_congr rfl fun e _ => ?_
  refine congrArg (fun v : EReal => if (dst (ix1 e)).toInt = (k.val : Int) then v else 0) ?_
  show (Host.gather dR hws ridx (ix2 e j) : EReal) = _
  rw [rows_read dR r1 r2 r3 r4 r5 r6 r7 hN hws ridx e j]

variable (dV : GatherDims ⟨1, ![N]⟩ ⟨2, ![M, 1]⟩ ⟨1, ![M]⟩)
    (v1 : dV.offsetDims = []) (v2 : dV.collapsedSliceDims = [0]) (v3 : dV.operandBatchingDims = [])
    (v4 : dV.startIndicesBatchingDims = []) (v5 : dV.startIndexMap = [0]) (v6 : dV.indexVectorDim = 1)
    (v7 : dV.sliceSizes = ![1])

include t1 t2 t3 t4 r1 r2 r3 r4 r5 r6 r7 v1 v2 v3 v4 v5 v6 v7 in
/-- Gathered rows scaled by the product of the two gathered degrees, scattered by target. -/
theorem aggRows_read (hN : 0 < N) (hw : FVec Ideal ⟨2, ![N, H]⟩ .f32) (d : FVec Ideal ⟨1, ![N]⟩ .f32)
    (ridx cidx : IVec ⟨2, ![M, 1]⟩ 32) (dst : IVec ⟨1, ![M]⟩ 32)
    (hz : (⟨0, ![]⟩ : Shape).BroadcastsInDim ⟨2, ![N, H]⟩ (![] : Fin 0 → Fin 2))
    (hc : (⟨1, ![M]⟩ : Shape).BroadcastsInDim ⟨2, ![M, 1]⟩ (![0] : Fin 1 → Fin 2))
    (hl : (⟨2, ![M, 1]⟩ : Shape).BroadcastsInDim ⟨2, ![M, H]⟩ (![0, 1] : Fin 2 → Fin 2)) (k : Fin N) (j : Fin H) :
    Host.scatterAdd sR (broadcastInDim ⟨2, ![N, H]⟩ ![] hz (constant (F := Ideal) ⟨0, ![]⟩ .f32 0x00000000#32))
        (broadcastInDim ⟨2, ![M, 1]⟩ ![0] hc dst)
        (mulf (Host.gather dR hw ridx)
          (broadcastInDim ⟨2, ![M, H]⟩ ![0, 1] hl (broadcastInDim ⟨2, ![M, 1]⟩ ![0] hc
            (mulf (Host.gather dV d ridx) (Host.gather dV d cidx))))) (ix2 k j)
      = ∑ e : Fin M, if (dst (ix1 e)).toInt = (k.val : Int)
          then hw (ix2 (grow N hN ridx e) j) * (d (ix1 (grow N hN ridx e)) * d (ix1 (grow N hN cidx e))) else 0 := by
  rw [scatterRows0_read sR t1 t2 t3 t4 _ dst hz hc k j]
  refine Finset.sum_congr rfl fun e _ => ?_
  refine congrArg (fun v : EReal => if (dst (ix1 e)).toInt = (k.val : Int) then v else 0) ?_
  refine (mulf_apply _ _ _).trans ?_
  rw [rows_read dR r1 r2 r3 r4 r5 r6 r7 hN hw ridx e j, Cert.ColumnInDim.broadcastInDim_lanes _ hl e j,
    Cert.ColumnInDim.broadcastInDim_column _ hc e 0, dprod_read dV v1 v2 v3 v4 v5 v6 v7 hN d ridx cidx e]

include t1 t2 t3 t4 r1 r2 r3 r4 r5 r6 r7 v1 v2 v3 v4 v5 v6 v7 in
/-- A whole layer in the per-edge arrangement, as a host program spells it — the scaled messages scattered by target,
    plus the node's own row scaled by its squared factor, plus the bias row, clamped at zero — read at (k, j). -/
theorem edgeLayer_read (hN : 0 < N) (hH : H ≠ 1) (hw : FVec Ideal ⟨2, ![N, H]⟩ .f32) (d : FVec Ideal ⟨1, ![N]⟩ .f32)
    (ridx cidx : IVec ⟨2, ![M, 1]⟩ 32) (dst : IVec ⟨1, ![M]⟩ 32) (b : FVec Ideal ⟨1, ![H]⟩ .f32)
    (hz : (⟨0, ![]⟩ : Shape).BroadcastsInDim ⟨2, ![N, H]⟩ (![] : Fin 0 → Fin 2))
    (hc : (⟨1, ![M]⟩ : Shape).BroadcastsInDim ⟨2, ![M, 1]⟩ (![0] : Fin 1 → Fin 2))
    (hl : (⟨2, ![M, 1]⟩ : Shape).BroadcastsInDim ⟨2, ![M, H]⟩ (![0, 1] : Fin 2 → Fin 2))
    (hcn : (⟨1, ![N]⟩ : Shape).BroadcastsInDim ⟨2, ![N, 1]⟩ (![0] : Fin 1 → Fin 2))
    (hln : (⟨2, ![N, 1]⟩ : Shape).BroadcastsInDim ⟨2, ![N, H]⟩ (![0, 1] : Fin 2 → Fin 2))
    (hb1 : (⟨1, ![H]⟩ : Shape).BroadcastsInDim ⟨2, ![1, H]⟩ (![1] : Fin 1 → Fin 2))
    (hb2 : (⟨2, ![1, H]⟩ : Shape).BroadcastsInDim ⟨2, ![N, H]⟩ (![0, 1] : Fin 2 → Fin 2)) (k : Fin N) (j : Fin H) :
    maximumf
        (addf
          (addf
            (Host.scatterAdd sR (broadcastInDim ⟨2, ![N, H]⟩ ![] hz (constant (F := Ideal) ⟨0, ![]⟩ .f32 0x00000000#32))
              (broadcastInDim ⟨2, ![M, 1]⟩ ![0] hc dst)
              (mulf (Host.gather dR hw ridx)
                (broadcastInDim ⟨2, ![M, H]⟩ ![0, 1] hl (broadcastInDim ⟨2, ![M, 1]⟩ ![0] hc
                  (mulf (Host.gather dV d ridx) (Host.gather dV d cidx))))))
            (mulf hw (broadcastInDim ⟨2, ![N, H]⟩ ![0, 1] hln (broadcastInDim ⟨2, ![N, 1]⟩ ![0] hcn (mulf d d)))))
          (broadcastInDim ⟨2, ![N, H]⟩ ![0, 1] hb2 (broadcastInDim ⟨2, ![1, H]⟩ ![1] hb1 b)))
        (broadcastInDim ⟨2, ![N, H]⟩ ![] hz (constant (F := Ideal) ⟨0, ![]⟩ .f32 0x00000000#32)) (ix2 k j)
      = Cert.Conv.layerEdge (fun e : Fin M => (dst (ix1 e)).toInt = (k.val : Int)) (grow N hN ridx) (grow N hN cidx)
          (fun k' => d (ix1 k')) (fun k' => hw (ix2 k' j)) (b (ix1 j)) k := by
  unfold Cert.Conv.layerEdge
  refine (maximumf_apply _ _ _).trans ?_
  refine congrArg₂ max ?_ ?_
  · refine (addf_apply _ _ _).trans (congrArg₂ (· + ·) ?_ ?_)
    · refine (addf_apply _ _ _).trans (congrArg₂ (· + ·) ?_ ?_)
      · exact aggRows_read sR t1 t2 t3 t4 dR r1 r2 r3 r4 r5 r6 r7 dV v1 v2 v3 v4 v5 v6 v7 hN hw d ridx cidx dst hz hc hl k j
      · refine (mulf_apply _ _ _).trans ?_
        rw [Cert.ColumnInDim.broadcastInDim_lanes _ hln k j, Cert.ColumnInDim.broadcastInDim_column _ hcn k 0]
        rfl
    · rw [Cert.RowInDim.broadcastInDim_rows hH _ hb2 k j, Cert.RowOfVector.broadcastInDim_row hH _ hb1 0 j]
  · rw [splat_apply, constant_apply]
    exact Ideal.ofBits_zero_f32

end Rows

end Cert.Layer

end
-- ==== Proof.Ref.lean ====
/-
  The reference program read at an entry, over the extended reals.

  With rv, cv the edges' source and target words, isd the inverse square-root degrees (one over the root of one plus
  the number of edges landing on a node), g e the row an indexed read takes for edge e's source word and g' e the
  one it takes for its target word:
  * the input stage h W1 with h = x W_in + b_in is a double sum;
  * a layer's closing at (k, l) is the per-edge arrangement: the sum over the landing edges of
    hw(g e, l) · (isd(g e) · isd(g' e)), plus hw(k, l) · (isd(k) · isd(k)), plus the bias, clamped at zero;
  * the head reads the selected rows of the last layer against a one-column weight and adds the bias.
  The program normalises the same index words several times over; the copies are one array.
-/
import proofs.«114178_j8143257993844_2_alg».proof.Proof.Gen.ReferenceIdeal.Read
import proofs.«114178_j8143257993844_2_alg».proof.Proof.LibGraphLayer
import proofs.«114178_j8143257993844_2_alg».proof.Proof.LibGraphConv
import proofs.«114178_j8143257993844_2_alg».proof.Proof.LibPlainDot
import proofs.«114178_j8143257993844_2_alg».proof.Proof.LibRowInDim
import proofs.«114178_j8143257993844_2_alg».proof.Proof.LibRowOfVector
import proofs.«114178_j8143257993844_2_alg».proof.Proof.LibColumnInDim
import proofs.«114178_j8143257993844_2_alg».proof.Proof.LibColumns

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GraphReads Cert.Layer

variable (x0 : FVec Ideal S100000x32 .f32) (x1 : IVec S2x1600000 32) (x2 : IVec S20000 32)
  (x4 : FVec Ideal S32x128 .f32) (x5 : FVec Ideal S128 .f32) (x6 : FVec Ideal S128x128 .f32) (x7 : FVec Ideal S128 .f32)
  (x8 : FVec Ideal S128x128 .f32) (x9 : FVec Ideal S128 .f32) (x10 : FVec Ideal S128x1 .f32) (x11 : FVec Ideal S1 .f32)
  (x12 : FVec Ideal S128x1 .f32) (x13 : FVec Ideal S1 .f32)

/-! ## The index columns: the program's copies are one array -/

theorem v21_eq : val_main_v21 (F := Ideal) x1 = val_main_v36 x1 := by
  unfold val_main_v21 val_main_v20 val_main_v19 val_main_v18 val_main_v17 val_main_v16 val_main_c val_main_c_2
    val_main_v36 val_main_v35 val_main_v34 val_main_v33 val_main_v32 val_main_v31 val_main_c_5 val_main_c_6
  rfl
theorem v59_eq : val_main_v59 (F := Ideal) x1 = val_main_v36 x1 := by
  unfold val_main_v59 val_main_v58 val_main_v57 val_main_v56 val_main_v55 val_main_v54 val_main_c_8 val_main_c_9
    val_main_v36 val_main_v35 val_main_v34 val_main_v33 val_main_v32 val_main_v31 val_main_c_5 val_main_c_6
  rfl
theorem v74_eq : val_main_v74 (F := Ideal) x1 = val_main_v36 x1 := by
  unfold val_main_v74 val_main_v73 val_main_v72 val_main_v71 val_main_v70 val_main_v69 val_main_c_12 val_main_c_13
    val_main_v36 val_main_v35 val_main_v34 val_main_v33 val_main_v32 val_main_v31 val_main_c_5 val_main_c_6
  rfl
theorem v66_eq : val_main_v66 (F := Ideal) x1 = val_main_v28 x1 := by
  unfold val_main_v66 val_main_v65 val_main_v64 val_main_v63 val_main_v62 val_main_v61 val_main_c_10 val_main_c_11
    val_main_v28 val_main_v27 val_main_v26 val_main_v25 val_main_v24 val_main_v23 val_main_c_3 val_main_c_4
  rfl

/-- The target column, normalised, at an edge. -/
theorem v28_read (e : Fin 1600000) :
    val_main_v28 (F := Ideal) x1 (ix2 e 0) = norm 100000#32 (val_main_v3 (F := Ideal) x1 (ix1 e)) := by
  unfold val_main_v28 val_main_v27 val_main_v26 val_main_v25 val_main_v24 val_main_v23 val_main_c_3 val_main_c_4
  exact normcol_read (val_main_v3 (F := Ideal) x1) 100000#32 bcast_S_S1600000 bcast_S1600000_S1600000x1_0 e

/-- The row an indexed read takes for edge e's source word. -/
def gR (e : Fin 1600000) : Fin 100000 := grow 100000 (by decide) (val_main_v36 (F := Ideal) x1) e
/-- The row an indexed read takes for edge e's target word. -/
def gC (e : Fin 1600000) : Fin 100000 := grow 100000 (by decide) (val_main_v28 (F := Ideal) x1) e

/-- An edge whose target word reads k has its target read at row k. -/
theorem gC_of_land (e : Fin 1600000) (k : Fin 100000)
    (h : (val_main_v3 (F := Ideal) x1 (ix1 e)).toInt = (k.val : Int)) : gC x1 e = k :=
  grow_of_word (by decide) _ e 100000#32 _ (v28_read x1 e) k h

/-! ## The degrees -/

theorem isd_read (k : Fin 100000) :
    val_main_v10 (F := Ideal) x1 (ix1 k) = isdOf (N := 100000) (val_main_v3 (F := Ideal) x1) k := by
  unfold val_main_v10 val_main_v9 val_main_v8 val_main_cst_1 val_main_v7 val_main_v6 val_main_v5 val_main_cst_0 val_main_v4
    val_main_cst
  exact Cert.Layer.isd_read scatter_S100000_S1600000x1_S1600000_n_0_0_1 rfl rfl rfl rfl (val_main_v3 (F := Ideal) x1)
    bcast_S_S100000 bcast_S_S1600000 bcast_S1600000_S1600000x1_0 k

/-! ## The input stage -/

theorem v15_read (k : Fin 100000) (l : Fin 128) :
    val_main_v15 (F := Ideal) x0 x4 x5 x6 (ix2 k l)
      = ∑ c : Fin 128, ((∑ j : Fin 32, x0 (ix2 k j) * x4 (ix2 j c)) + x5 (ix1 c)) * x6 (ix2 c l) := by
  unfold val_main_v15
  simp only [Host.dotGeneral]
  refine (Cert.PlainDot.dotGeneral_apply _ rfl none _ _ _ k l).trans ?_
  refine Finset.sum_congr rfl fun c _ => ?_
  refine congrArg (· * x6 (ix2 c l)) ?_
  unfold val_main_v14
  refine (addf_apply _ _ _).trans ?_
  refine congrArg₂ (· + ·) ?_ ?_
  · unfold val_main_v11
    simp only [Host.dotGeneral]
    exact Cert.PlainDot.dotGeneral_apply _ rfl none _ _ _ k c
  · unfold val_main_v13 val_main_v12
    rw [Cert.RowInDim.broadcastInDim_rows (by decide) _ _ k c, Cert.RowOfVector.broadcastInDim_row (by decide) _ _ 0 c]

/-! ## The two layers -/

/-- The first layer's closing at (k, l). -/
theorem v52_read (k : Fin 100000) (l : Fin 128) :
    val_main_v52 (F := Ideal) x0 x1 x4 x5 x6 x7 (ix2 k l)
      = Cert.Conv.layerEdge (fun e : Fin 1600000 => (val_main_v3 (F := Ideal) x1 (ix1 e)).toInt = (k.val : Int))
          (gR x1) (gC x1) (fun k' => val_main_v10 (F := Ideal) x1 (ix1 k'))
          (fun k' => val_main_v15 (F := Ideal) x0 x4 x5 x6 (ix2 k' l)) (x7 (ix1 l)) k := by
  unfold gR gC
  unfold val_main_v52 val_main_call0_v0 val_main_call0_cst val_main_v51 val_main_v50 val_main_v49 val_main_v48 val_main_v47
    val_main_v46 val_main_v45 val_main_v44 val_main_v43 val_main_v42 val_main_v41 val_main_cst_7 val_main_v40 val_main_v39
    val_main_v38 val_main_v37 val_main_v30 val_main_v29 val_main_v22
  rw [v21_eq]
  exact edgeLayer_read scatter_S100000x128_S1600000x1_S1600000x128_1_0_0_1 rfl rfl rfl rfl
    gather_S100000x128_S1600000x1_S1600000x128_1_0_n_n_0_1_1128 rfl rfl rfl rfl rfl rfl rfl
    gather_S100000_S1600000x1_S1600000_n_0_n_n_0_1_1 rfl rfl rfl rfl rfl rfl rfl (by decide) (by decide)
    (val_main_v15 (F := Ideal) x0 x4 x5 x6) (val_main_v10 (F := Ideal) x1) (val_main_v36 (F := Ideal) x1)
    (val_main_v28 (F := Ideal) x1) (val_main_v3 (F := Ideal) x1) x7 bcast_S_S100000x128 bcast_S1600000_S1600000x1_0
    bcast_S1600000x1_S1600000x128_0_1 bcast_S100000_S100000x1_0 bcast_S100000x1_S100000x128_0_1 bcast_S128_S1x128_1
    bcast_S1x128_S100000x128_0_1 k l

/-- The second layer's matmul at (k, l). -/
theorem v53_read (k : Fin 100000) (l : Fin 128) :
    val_main_v53 (F := Ideal) x0 x1 x4 x5 x6 x7 x8 (ix2 k l)
      = ∑ c : Fin 128, val_main_v52 (F := Ideal) x0 x1 x4 x5 x6 x7 (ix2 k c) * x8 (ix2 c l) := by
  unfold val_main_v53
  simp only [Host.dotGeneral]
  exact Cert.PlainDot.dotGeneral_apply _ rfl none _ _ _ k l

/-- The second layer's closing at (k, l). -/
theorem v90_read (k : Fin 100000) (l : Fin 128) :
    val_main_v90 (F := Ideal) x0 x1 x4 x5 x6 x7 x8 x9 (ix2 k l)
      = Cert.Conv.layerEdge (fun e : Fin 1600000 => (val_main_v3 (F := Ideal) x1 (ix1 e)).toInt = (k.val : Int))
          (gR x1) (gC x1) (fun k' => val_main_v10 (F := Ideal) x1 (ix1 k'))
          (fun k' => val_main_v53 (F := Ideal) x0 x1 x4 x5 x6 x7 x8 (ix2 k' l)) (x9 (ix1 l)) k := by
  unfold gR gC
  unfold val_main_v90 val_main_call1_v0 val_main_call1_cst val_main_v89 val_main_v88 val_main_v87 val_main_v86 val_main_v85
    val_main_v84 val_main_v83 val_main_v82 val_main_v81 val_main_v80 val_main_v79 val_main_cst_14 val_main_v78 val_main_v77
    val_main_v76 val_main_v75 val_main_v68 val_main_v67 val_main_v60
  rw [v59_eq, v66_eq, v74_eq]
  exact edgeLayer_read scatter_S100000x128_S1600000x1_S1600000x128_1_0_0_1 rfl rfl rfl rfl
    gather_S100000x128_S1600000x1_S1600000x128_1_0_n_n_0_1_1128 rfl rfl rfl rfl rfl rfl rfl
    gather_S100000_S1600000x1_S1600000_n_0_n_n_0_1_1 rfl rfl rfl rfl rfl rfl rfl (by decide) (by decide)
    (val_main_v53 (F := Ideal) x0 x1 x4 x5 x6 x7 x8) (val_main_v10 (F := Ideal) x1) (val_main_v36 (F := Ideal) x1)
    (val_main_v28 (F := Ideal) x1) (val_main_v3 (F := Ideal) x1) x9 bcast_S_S100000x128 bcast_S1600000_S1600000x1_0
    bcast_S1600000x1_S1600000x128_0_1 bcast_S100000_S100000x1_0 bcast_S100000x1_S100000x128_0_1 bcast_S128_S1x128_1
    bcast_S1x128_S100000x128_0_1 k l

/-! ## The head -/

/-- The row an indexed read takes for the s-th selected node. -/
def gS (s : Fin 20000) : Fin 100000 := grow 100000 (by decide) (val_main_v96 (F := Ideal) x2) s

/-- One head column before the clip: the selected row against a one-column weight, plus the bias. -/
theorem head_read (w : FVec Ideal S128x1 .f32) (b : FVec Ideal S1 .f32) (s : Fin 20000) :
    shapeCast S20000
        (addf (Host.dotGeneral (F := Ideal) (φ₁ := .f32) (φ₂ := .f32) dot_S20000x128_S128x1_S20000x1_1_0_0_1_n_n none (val_main_v97 (F := Ideal) x0 x1 x2 x4 x5 x6 x7 x8 x9) w)
          (broadcastInDim S20000x1 ![0, 1] bcast_S1x1_S20000x1_0_1 (broadcastInDim S1x1 ![1] bcast_S1_S1x1_1 b)))
        shapeCasts_S20000x1_S20000 (ix1 s)
      = (∑ c : Fin 128, val_main_v90 (F := Ideal) x0 x1 x4 x5 x6 x7 x8 x9 (ix2 (gS x2 s) c) * w (ix2 c 0)) + b (ix1 0) := by
  refine (Idealize.ShloMosaic.Columns.shapeCast_a1_a_apply _ _ s).trans ?_
  refine (addf_apply _ _ _).trans (congrArg₂ (· + ·) ?_ ?_)
  · simp only [Host.dotGeneral]
    refine (Cert.PlainDot.dotGeneral_apply _ rfl none _ _ _ s 0).trans ?_
    refine Finset.sum_congr rfl fun c _ => ?_
    refine congrArg (· * w (ix2 c 0)) ?_
    unfold val_main_v97 gS
    exact rows_read gather_S100000x128_S20000x1_S20000x128_1_0_n_n_0_1_1128 rfl rfl rfl rfl rfl rfl rfl (by decide) _ _ s c
  · refine (broadcastInDim_apply _ bcast_S1x1_S20000x1_0_1 _ (ix2 s 0) (ix2 0 0) (fun a => ?_)).trans ?_
    · match a with
      | ⟨0, _⟩ => show 0 = if (1 : Nat) = 1 then 0 else s.val; rw [if_pos rfl]
      | ⟨1, _⟩ => show 0 = if (1 : Nat) = 1 then 0 else 0; rw [if_pos rfl]
    · refine (broadcastInDim_apply _ bcast_S1_S1x1_1 b (ix2 0 0) (ix1 0) (fun a => ?_))
      match a with
      | ⟨0, _⟩ => show 0 = if (1 : Nat) = 1 then 0 else 0; rw [if_pos rfl]

end Cert.ReferenceIdeal.RefValue

end
-- ==== Proof.Bridge.lean ====
/-
  The two programs compute one function. Both count the degrees, normalise the edge words and lay the biases out in
  the same way, so those pieces are the same arrays. The kernel program pre-scales every node's features by its own
  inverse square-root degree before the edge stage and scales the sum afterwards; the reference scales every edge's
  message by the product of its two ends' factors. A degree is at least one, so its inverse square root is a
  positive real, and a nonnegative finite factor distributes over a sum of extended reals whatever the summands:
  the two arrangements agree entry by entry, layer after layer, with no finiteness asked of the inputs. The head
  weights and biases the kernel joins side by side are read back column by column; the sampling arithmetic after
  the head is the same on both sides.
-/
import proofs.«114178_j8143257993844_2_alg».proof.Proof.KChain
import proofs.«114178_j8143257993844_2_alg».proof.Proof.Ref
import proofs.«114178_j8143257993844_2_alg».proof.Proof.LibRowVector

noncomputable section

open scoped BigOperators

namespace Cert.Bridge

open Cert.KernelIdeal Cert.KernelIdeal.Gen Cert.KernelIdeal.Chain
open Cert.ReferenceIdeal.Read Cert.ReferenceIdeal.RefValue
open Idealize.ShloMosaic Idealize.ShloMosaic.ValueIdx Cert.GraphReads Cert.Layer

variable (x0 : FVec Ideal S100000x32 .f32) (x1 : IVec S2x1600000 32) (x2 : IVec S20000 32) (x3 : FVec Ideal S20000 .f32)
  (x4 : FVec Ideal S32x128 .f32) (x5 : FVec Ideal S128 .f32) (x6 : FVec Ideal S128x128 .f32) (x7 : FVec Ideal S128 .f32)
  (x8 : FVec Ideal S128x128 .f32) (x9 : FVec Ideal S128 .f32) (x10 : FVec Ideal S128x1 .f32) (x11 : FVec Ideal S1 .f32)
  (x12 : FVec Ideal S128x1 .f32) (x13 : FVec Ideal S1 .f32)

/-! ## The shared pieces are the same arrays -/

theorem rowV_eq : rowV x1 = val_main_v1 (F := Ideal) x1 := by
  unfold rowV val_main_v1 val_main_v0; rfl
theorem colV_eq : colV x1 = val_main_v3 (F := Ideal) x1 := by
  unfold colV val_main_v3 val_main_v2; rfl
theorem rowN_eq : rowN (val_main_v1 (F := Ideal) x1) = val_main_v36 (F := Ideal) x1 := by
  unfold rowN val_main_v36 val_main_v35 val_main_v34 val_main_v33 val_main_v32 val_main_v31 val_main_c_5 val_main_c_6; rfl
theorem sgN_eq : sgN x2 = val_main_v96 (F := Ideal) x2 := by
  unfold sgN val_main_v96 val_main_v95 val_main_v94 val_main_v93 val_main_v92 val_main_v91 val_main_c_15 val_main_c_16; rfl

/-! ## The kernel program's host pieces at an entry -/

theorem brow_read (b : FVec Ideal S128 .f32) (c : Fin 128) : brow b (ix2 0 c) = b (ix1 c) := by
  unfold brow; exact Cert.RowVector.shapeCast_row b _ c

theorem isdC_read (cv : IVec S1600000 32) (k : Fin 100000) : isdC cv (ix2 k 0) = isdOf (N := 100000) cv k := by
  unfold isdC
  refine (Cert.ColumnInDim.shapeCast_column _ _ k 0).trans ?_
  unfold isdV colB
  exact Cert.Layer.isd_read scatter_S100000_S1600000x1_S1600000_n_0_0_1 rfl rfl rfl rfl cv bcast_S_S100000 bcast_S_S1600000
    bcast_S1600000_S1600000x1_0 k

theorem scan_read (hws : FVec Ideal S100000x128 .bf16) (rv cv : IVec S1600000 32) (k : Fin 100000) (l : Fin 128) :
    scan hws rv cv (ix2 k l)
      = ∑ e : Fin 1600000, if (cv (ix1 e)).toInt = (k.val : Int)
          then (hws (ix2 (grow 100000 (by decide) (rowN rv) e) l) : EReal) else 0 := by
  unfold scan colB
  exact scanRows_read scatter_S100000x128_S1600000x1_S1600000x128_1_0_0_1 rfl rfl rfl rfl
    gather_S100000x128_S1600000x1_S1600000x128_1_0_n_n_0_1_1128 rfl rfl rfl rfl rfl rfl rfl (by decide) bitsLt_bf16_f32 hws (rowN rv) cv
    bcast_S_S100000x128 bcast_S1600000_S1600000x1_0 k l

theorem zeroWord_eq : Cert.KernelIdeal.Pay.zeroWord = 0 := Ideal.ofBits_zero_f32

/-- The kernel's degree column is the reference's degree vector. -/
theorem isdC_eq (k : Fin 100000) : isdC (colV x1) (ix2 k 0) = val_main_v10 (F := Ideal) x1 (ix1 k) := by
  rw [isdC_read, colV_eq, Cert.ReferenceIdeal.RefValue.isd_read]

/-- The reference's degree factor is nonnegative and finite. -/
theorem isd_pos (k : Fin 100000) :
    0 ≤ val_main_v10 (F := Ideal) x1 (ix1 k) ∧ val_main_v10 (F := Ideal) x1 (ix1 k) ≠ ⊤ := by
  rw [Cert.ReferenceIdeal.RefValue.isd_read]
  exact Cert.Conv.rsqrt_degree _

/-! ## A layer's closing: the kernel's arrangement is the reference's -/

/-- For pre-scaled features `hws = hw · isd`, the kernel's closing at (k, l) is the per-edge arrangement over `hw`. -/
theorem closing_eq (hws : FVec Ideal S100000x128 .bf16) (hw : FVec Ideal S100000x128 .f32) (b : FVec Ideal S128 .f32)
    (hh : ∀ (k : Fin 100000) (l : Fin 128), (hws (ix2 k l) : EReal) = hw (ix2 k l) * val_main_v10 (F := Ideal) x1 (ix1 k))
    (k : Fin 100000) (l : Fin 128) :
    max (isdC (colV x1) (ix2 k 0) * (scan hws (rowV x1) (colV x1) (ix2 k l) + hws (ix2 k l)) + brow b (ix2 0 l))
        Cert.KernelIdeal.Pay.zeroWord
      = Cert.Conv.layerEdge (fun e : Fin 1600000 => (val_main_v3 (F := Ideal) x1 (ix1 e)).toInt = (k.val : Int))
          (gR x1) (gC x1) (fun k' => val_main_v10 (F := Ideal) x1 (ix1 k')) (fun k' => hw (ix2 k' l)) (b (ix1 l)) k := by
  refine Eq.trans ?_ (Cert.Conv.layerPre_eq_layerEdge
    (fun e : Fin 1600000 => (val_main_v3 (F := Ideal) x1 (ix1 e)).toInt = (k.val : Int)) (gR x1) (gC x1)
    (fun k' => val_main_v10 (F := Ideal) x1 (ix1 k')) (fun k' => hw (ix2 k' l)) (b (ix1 l)) k (isd_pos x1 k).1 (isd_pos x1 k).2
    (fun e he => gC_of_land x1 e k he))
  unfold Cert.Conv.layerPre
  rw [isdC_eq, scan_read, hh k l, brow_read, zeroWord_eq, colV_eq, rowV_eq, rowN_eq]
  refine congrArg (fun s : EReal => max (val_main_v10 (F := Ideal) x1 (ix1 k) * (s + hw (ix2 k l) * val_main_v10 (F := Ideal) x1 (ix1 k)) + b (ix1 l)) 0) ?_
  refine Finset.sum_congr rfl fun e _ => ?_
  rw [hh]
  rfl

/-! ## The stages, entry by entry -/

theorem hw1s_eq (k : Fin 100000) (l : Fin 128) :
    (hw1s x0 x1 x4 x5 x6 (ix2 k l) : EReal)
      = val_main_v15 (F := Ideal) x0 x4 x5 x6 (ix2 k l) * val_main_v10 (F := Ideal) x1 (ix1 k) := by
  unfold hw1s Cert.KernelIdeal.Reg0.G
  show (∑ c : Fin 128, ((∑ j : Fin 32, x0 (ix2 k j) * x4 (ix2 j c)) + brow x5 (ix2 0 c)) * x6 (ix2 c l))
      * isdC (colV x1) (ix2 k 0) = _
  rw [v15_read]
  refine congrArg₂ (· * ·) (Finset.sum_congr rfl fun c _ => ?_) (isdC_eq x1 k)
  rw [brow_read]

theorem hw2s_eq (k : Fin 100000) (l : Fin 128) :
    (hw2s x0 x1 x4 x5 x6 x7 x8 (ix2 k l) : EReal)
      = val_main_v53 (F := Ideal) x0 x1 x4 x5 x6 x7 x8 (ix2 k l) * val_main_v10 (F := Ideal) x1 (ix1 k) := by
  unfold hw2s Cert.KernelIdeal.Reg1.G
  show (∑ c : Fin 128,
        max (isdC (colV x1) (ix2 k 0) * (scan (hw1s x0 x1 x4 x5 x6) (rowV x1) (colV x1) (ix2 k c) + hw1s x0 x1 x4 x5 x6 (ix2 k c))
          + brow x7 (ix2 0 c)) Cert.KernelIdeal.Pay.zeroWord * x8 (ix2 c l)) * isdC (colV x1) (ix2 k 0) = _
  rw [v53_read]
  refine congrArg₂ (· * ·) (Finset.sum_congr rfl fun c _ => ?_) (isdC_eq x1 k)
  rw [closing_eq x1 (hw1s x0 x1 x4 x5 x6) (val_main_v15 (F := Ideal) x0 x4 x5 x6) x7 (hw1s_eq x0 x1 x4 x5 x6) k c, v52_read]

theorem h2_eq : h2 x0 x1 x4 x5 x6 x7 x8 x9 = val_main_v90 (F := Ideal) x0 x1 x4 x5 x6 x7 x8 x9 := by
  funext i
  obtain ⟨k, l, rfl⟩ : ∃ (k : Fin 100000) (l : Fin 128), i = ix2 k l := ⟨i 0, i 1, eq_ix2 i⟩
  unfold h2 Cert.KernelIdeal.Reg2.G
  show max (isdC (colV x1) (ix2 k 0) * (scan (hw2s x0 x1 x4 x5 x6 x7 x8) (rowV x1) (colV x1) (ix2 k l)
      + hw2s x0 x1 x4 x5 x6 x7 x8 (ix2 k l)) + brow x9 (ix2 0 l)) Cert.KernelIdeal.Pay.zeroWord = _
  rw [closing_eq x1 (hw2s x0 x1 x4 x5 x6 x7 x8) (val_main_v53 (F := Ideal) x0 x1 x4 x5 x6 x7 x8) x9
    (hw2s_eq x0 x1 x4 x5 x6 x7 x8) k l, v90_read]

/-! ## The head -/

theorem wcat_left (a b : FVec Ideal S128x1 .f32) (c : Fin 128) : wcat a b (ix2 c 0) = a (ix2 c 0) := by
  unfold wcat
  exact concatenate_pair_apply_left (t := S128x2) (1 : Fin 2) a b concatenates_S128x1_S128x1_S128x2_d1 (ix2 c (0 : Fin 2)) rfl
    (ix2 c (0 : Fin 1)) (fun bb => by match bb with | ⟨0, _⟩ => rfl | ⟨1, _⟩ => rfl)
theorem wcat_right (a b : FVec Ideal S128x1 .f32) (c : Fin 128) : wcat a b (ix2 c 1) = b (ix2 c 0) := by
  unfold wcat
  exact concatenate_pair_apply_right (t := S128x2) (1 : Fin 2) a b concatenates_S128x1_S128x1_S128x2_d1 (ix2 c (1 : Fin 2)) rfl rfl
    (ix2 c (0 : Fin 1)) (fun bb hb => by match bb with | ⟨0, _⟩ => rfl | ⟨1, _⟩ => exact absurd rfl hb) (by rfl)
theorem bcat_left (a b : FVec Ideal S1 .f32) : bcat a b (ix2 0 0) = a (ix1 0) := by
  unfold bcat
  refine (Cert.RowVector.shapeCast_row _ _ 0).trans ?_
  exact concatenate_pair_apply_left (t := S2) (0 : Fin 1) a b concatenates_S1_S1_S2_d0 (ix1 (0 : Fin 2)) rfl (ix1 (0 : Fin 1))
    (fun bb => by match bb with | ⟨0, _⟩ => rfl)
theorem bcat_right (a b : FVec Ideal S1 .f32) : bcat a b (ix2 0 1) = b (ix1 0) := by
  unfold bcat
  refine (Cert.RowVector.shapeCast_row _ _ 1).trans ?_
  exact concatenate_pair_apply_right (t := S2) (0 : Fin 1) a b concatenates_S1_S1_S2_d0 (ix1 (1 : Fin 2)) rfl rfl (ix1 (0 : Fin 1))
    (fun bb hb => by match bb with | ⟨0, _⟩ => exact absurd rfl hb) (by rfl)

/-- The selected rows of the last layer are the reference's. -/
theorem zsel_read (s : Fin 20000) (c : Fin 128) :
    zsel (h2 x0 x1 x4 x5 x6 x7 x8 x9) x2 (ix2 s c)
      = val_main_v90 (F := Ideal) x0 x1 x4 x5 x6 x7 x8 x9 (ix2 (gS x2 s) c) := by
  unfold zsel gS
  rw [rows_read gather_S100000x128_S20000x1_S20000x128_1_0_n_n_0_1_1128 rfl rfl rfl rfl rfl rfl rfl (by decide) _ _ s c,
    h2_eq, sgN_eq]

theorem mu_eq : muOf (mlog x0 x1 x2 x4 x5 x6 x7 x8 x9 x10 x11 x12 x13)
    = val_main_v102 (F := Ideal) x0 x1 x2 x4 x5 x6 x7 x8 x9 x10 x11 := by
  funext i
  obtain ⟨s, rfl⟩ : ∃ s : Fin 20000, i = ix1 s := ⟨i 0, eq_ix1 i⟩
  unfold muOf
  refine (Idealize.ShloMosaic.Columns.column_apply (0 : Fin 2) _ _ _ s).trans ?_
  unfold mlog Cert.KernelIdeal.Reg3.G
  show (∑ c : Fin 128, zsel (h2 x0 x1 x4 x5 x6 x7 x8 x9) x2 (ix2 s c) * wcat x10 x12 (ix2 c 0)) + bcat x11 x13 (ix2 0 0) = _
  unfold val_main_v102 val_main_v101 val_main_v100 val_main_v99 val_main_v98
  rw [head_read, bcat_left]
  refine congrArg (· + x11 (ix1 0)) (Finset.sum_congr rfl fun c _ => ?_)
  rw [zsel_read, wcat_left]

theorem ls_eq : lsOf (mlog x0 x1 x2 x4 x5 x6 x7 x8 x9 x10 x11 x12 x13)
    = val_main_v107 (F := Ideal) x0 x1 x2 x4 x5 x6 x7 x8 x9 x12 x13 := by
  funext i
  obtain ⟨s, rfl⟩ : ∃ s : Fin 20000, i = ix1 s := ⟨i 0, eq_ix1 i⟩
  unfold lsOf
  refine (Idealize.ShloMosaic.Columns.column_apply (1 : Fin 2) _ _ _ s).trans ?_
  unfold mlog Cert.KernelIdeal.Reg3.G
  show (∑ c : Fin 128, zsel (h2 x0 x1 x4 x5 x6 x7 x8 x9) x2 (ix2 s c) * wcat x10 x12 (ix2 c 1)) + bcat x11 x13 (ix2 0 1) = _
  unfold val_main_v107 val_main_v106 val_main_v105 val_main_v104 val_main_v103
  rw [head_read, bcat_right]
  refine congrArg (· + x13 (ix1 0)) (Finset.sum_congr rfl fun c _ => ?_)
  rw [zsel_read, wcat_right]

/-! ## The sampling arithmetic is the same text on both sides -/

theorem act_eq : val_main_v112 (F := Ideal) x0 x1 x2 x3 x4 x5 x6 x7 x8 x9 x10 x11 x12 x13
    = actOf (val_main_v102 (F := Ideal) x0 x1 x2 x4 x5 x6 x7 x8 x9 x10 x11)
        (val_main_v107 (F := Ideal) x0 x1 x2 x4 x5 x6 x7 x8 x9 x12 x13) x3 := by
  unfold val_main_v112 val_main_v111 val_main_v110 val_main_v109 val_main_v108 val_main_call2_v4 val_main_call2_v3
    val_main_cst_18 val_main_call2_v2 val_main_call2_v1 val_main_call2_v0 val_main_cst_17 actOf lsClip
  rfl

theorem logp_eq : val_main_v128 (F := Ideal) x0 x1 x2 x3 x4 x5 x6 x7 x8 x9 x10 x11 x12 x13
    = logpOf (val_main_v102 (F := Ideal) x0 x1 x2 x4 x5 x6 x7 x8 x9 x10 x11)
        (val_main_v107 (F := Ideal) x0 x1 x2 x4 x5 x6 x7 x8 x9 x12 x13) x3 := by
  unfold val_main_v128 val_main_v127 val_main_v126 val_main_v125 val_main_v124 val_main_cst_24 val_main_v123 val_main_v122
    val_main_cst_23 val_main_v121 val_main_cst_25 val_main_v120 val_main_cst_22 val_main_v119 val_main_v118 val_main_v117
    val_main_cst_21 val_main_cst_20 val_main_v116 val_main_v115 val_main_v114 val_main_v113 val_main_cst_19
    val_main_v112 val_main_v111 val_main_v110 val_main_v109 val_main_v108 val_main_call2_v4 val_main_call2_v3
    val_main_cst_18 val_main_call2_v2 val_main_call2_v1 val_main_call2_v0 val_main_cst_17 logpOf actOf lsClip
  rfl

/-- The first results agree. -/
theorem out0_eq : actOf (muOf (mlog x0 x1 x2 x4 x5 x6 x7 x8 x9 x10 x11 x12 x13)) (lsOf (mlog x0 x1 x2 x4 x5 x6 x7 x8 x9 x10 x11 x12 x13)) x3
    = val_main_v112 (F := Ideal) x0 x1 x2 x3 x4 x5 x6 x7 x8 x9 x10 x11 x12 x13 := by
  rw [mu_eq, ls_eq, act_eq]

/-- The second results agree. -/
theorem out1_eq : logpOf (muOf (mlog x0 x1 x2 x4 x5 x6 x7 x8 x9 x10 x11 x12 x13)) (lsOf (mlog x0 x1 x2 x4 x5 x6 x7 x8 x9 x10 x11 x12 x13)) x3
    = val_main_v128 (F := Ideal) x0 x1 x2 x3 x4 x5 x6 x7 x8 x9 x10 x11 x12 x13 := by
  rw [mu_eq, ls_eq, logp_eq]

end Cert.Bridge

end
-- ==== Proof.lean ====
/-
  The certificate: the kernel program (word level and idealized) and the idealized reference each run to the end from any
  memory and leave their arguments as launched, and the idealized kernel and the idealized reference, run from
  memories that agree on the arguments, end with equal results.

  The program is a two-layer graph convolution with a sampling head. Both programs compute, per node, the inverse
  square root isd of one plus the number of edges landing on it. The reference scales every edge's message by
  isd(source) · isd(target); the kernel multiplies every node's features by its own isd once, sums the gathered rows
  unscaled, and multiplies the sum by isd(target) afterwards. Since isd is a positive real, that one factor
  distributes over the sum of extended reals and the two arrangements agree entry by entry (LibGraphConv.lean, Bridge.lean).
  The frames and the reference's run are generated; the kernel program's run keeps its two result buffers (KRun.lean),
  which are read back to the arguments segment by segment (KChain.lean, KReg0 … KReg3.lean for the pallas_calls).
-/
import proofs.«114178_j8143257993844_2_alg».proof.Defs
import proofs.«114178_j8143257993844_2_alg».proof.Proof.Gen.Kernel
import proofs.«114178_j8143257993844_2_alg».proof.Proof.Gen.Kernel.Skeleton
import proofs.«114178_j8143257993844_2_alg».proof.Proof.Gen.Kernel.Launch
import proofs.«114178_j8143257993844_2_alg».proof.Proof.Gen.Kernel.Points
import proofs.«114178_j8143257993844_2_alg».proof.Proof.Gen.Kernel.Frame
import proofs.«114178_j8143257993844_2_alg».proof.Proof.Gen.KernelIdeal
import proofs.«114178_j8143257993844_2_alg».proof.Proof.Gen.KernelIdeal.Skeleton
import proofs.«114178_j8143257993844_2_alg».proof.Proof.Gen.KernelIdeal.Launch
import proofs.«114178_j8143257993844_2_alg».proof.Proof.Gen.KernelIdeal.Points
import proofs.«114178_j8143257993844_2_alg».proof.Proof.Gen.KernelIdeal.Frame
import proofs.«114178_j8143257993844_2_alg».proof.Proof.Gen.ReferenceIdeal
import proofs.«114178_j8143257993844_2_alg».proof.Proof.Gen.Pre_finite_inputs
import proofs.«114178_j8143257993844_2_alg».proof.Proof.Gen.ReferenceIdeal.Run
import proofs.«114178_j8143257993844_2_alg».proof.Proof.Gen.ReferenceIdeal.Read
import proofs.«114178_j8143257993844_2_alg».proof.Proof.KRun
import proofs.«114178_j8143257993844_2_alg».proof.Proof.KOut
import proofs.«114178_j8143257993844_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end at the kernel's functions of the arguments: the kernel's by reading its segments back, the
    reference's because its stages are those functions entry by entry. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Chain.out0 m ρ c), (h c).2.1.trans (Cert.KernelIdeal.Chain.out1 m ρ c), (h c).2.2⟩)
    (Cert.KernelIdeal.Whole.run m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v112_eq, a0, a1, a2, a3, a4, a5, a6, a7, a8, a9, a10, a11, a12, a13]
    exact (Cert.Bridge.out0_eq _ _ _ _ _ _ _ _ _ _ _ _ _ _).symm
  · obtain ⟨a0, a1, a2, a3, a4, a5, a6, a7, a8, a9, a10, a11, a12, a13⟩ := hagree c
    rw [Cert.ReferenceIdeal.Read.val_main_v128_eq, a0, a1, a2, a3, a4, a5, a6, a7, a8, a9, a10, a11, a12, a13]
    exact (Cert.Bridge.out1_eq _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
